-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8x64x64x64 : Shape := ⟨5, ![1, 8, 64, 64, 64]⟩
abbrev S1x100000x32 : Shape := ⟨3, ![1, 100000, 32]⟩
abbrev S256x512 : Shape := ⟨2, ![256, 512]⟩
abbrev S512 : Shape := ⟨1, ![512]⟩
abbrev S512x32 : Shape := ⟨2, ![512, 32]⟩
abbrev S32 : Shape := ⟨1, ![32]⟩
abbrev S_ : Shape := ⟨0, ![]⟩

class Facts : Prop where
  bcast_S_S1x8x64x64x64 : S_.BroadcastsInDim S1x8x64x64x64 (![] : Fin 0 → Fin S1x8x64x64x64.rank)
  reducesTo_S1x8x64x64x64_S_d0_1_2_3_4 : S1x8x64x64x64.ReducesTo [0, 1, 2, 3, 4] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S512x32 1) : IVec S_ 1 :=
  let main_c_5 : IVec S_ 1 := constantI S_ 1 1#1
  let main_v17 : IVec S_ 1 := (fun x v => Host.reduce IntOp.andi x v reducesTo_S512x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S1x8x64x64x64 .f32) (main_arg1 : IVec S1x100000x32 32) (main_arg2 : FVec F S256x512 .f32) (main_arg3 : FVec F S512 .f32) (main_arg4 : FVec F S512x32 .f32) (main_arg5 : FVec F S32 .f32) : IVec S_ 1 :=
  let main_v0 : FVec F S1x8x64x64x64 .f32 := Host.absf main_arg0
  let main_cst : FVec F S_ .f32 := constant S_ .f32 0x7F800000#32
  let main_v1 : FVec F S1x8x64x64x64 .f32 := broadcastInDim S1x8x64x64x64 ![] bcast_S_S1x8x64x64x64 main_cst
  let main_v2 : IVec S1x8x64x64x64 1 := cmpf .olt main_v0 main_v1
  let main_c : IVec S_ 1 := constantI S_ 1 1#1
  let main_v3 : IVec S_ 1 := (fun x v => Host.reduce IntOp.andi x v reducesTo_S1x8x64x64x64_S_d0_1_2_3_4 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x32 .f32 := Host.absf main_arg4
  let main_cst_4 : FVec F S_ .f32 := constant S_ .f32 0x7F800000#32
  let main_v15 : FVec F S512x32 .f32 := broadcastInDim S512x32 ![] bcast_S_S512x32 main_cst_4
  let main_v16 : IVec S512x32 1 := cmpf .olt main_v14 main_v15
  fn_part1 (F := F) main_arg5 main_v13 main_v16
-- ==== Kernel.lean ====
abbrev S1x8x64x64x64 : Shape := ⟨5, ![1, 8, 64, 64, 64]⟩
abbrev S1x100000x32 : Shape := ⟨3, ![1, 100000, 32]⟩
abbrev S256x512 : Shape := ⟨2, ![256, 512]⟩
abbrev S512 : Shape := ⟨1, ![512]⟩
abbrev S512x32 : Shape := ⟨2, ![512, 32]⟩
abbrev S32 : Shape := ⟨1, ![32]⟩
abbrev S1x8x262144 : Shape := ⟨3, ![1, 8, 262144]⟩
abbrev S_ : Shape := ⟨0, ![]⟩
abbrev S1x1x3200000 : Shape := ⟨3, ![1, 1, 3200000]⟩
abbrev S1x8x3200000 : Shape := ⟨3, ![1, 8, 3200000]⟩
abbrev S8x3200000x1 : Shape := ⟨3, ![8, 3200000, 1]⟩
abbrev S1 : Shape := ⟨1, ![1]⟩
abbrev S1x1x1 : Shape := ⟨3, ![1, 1, 1]⟩
abbrev S8x3200000 : Shape := ⟨2, ![8, 3200000]⟩
abbrev S1x8x100000x32 : Shape := ⟨4, ![1, 8, 100000, 32]⟩
abbrev S1x1x100000x32 : Shape := ⟨4, ![1, 1, 100000, 32]⟩
abbrev S1x100000x8x32 : Shape := ⟨4, ![1, 100000, 8, 32]⟩
abbrev S1x100000x256 : Shape := ⟨3, ![1, 100000, 256]⟩
abbrev S100000x256 : Shape := ⟨2, ![100000, 256]⟩
abbrev S100000x32 : Shape := ⟨2, ![100000, 32]⟩
abbrev S2000x256 : Shape := ⟨2, ![2000, 256]⟩
abbrev S2000x32 : Shape := ⟨2, ![2000, 32]⟩
abbrev S2000x512 : Shape := ⟨2, ![2000, 512]⟩
abbrev S1x512 : Shape := ⟨2, ![1, 512]⟩
abbrev S1x32 : Shape := ⟨2, ![1, 32]⟩

abbrev nBuf : Space → Nat
  | .hbm => 48
  | .vmem => 8
  | .smem => 0
  | _ => 0

abbrev bufTy : (tb : Table) → Fin (tcTables nBuf tb) → BufTy
  | .hbm, ⟨0, _⟩ => ⟨S1x8x64x64x64, .f32⟩
  | .hbm, ⟨1, _⟩ => ⟨S1x100000x32, .i32⟩
  | .hbm, ⟨2, _⟩ => ⟨S256x512, .f32⟩
  | .hbm, ⟨3, _⟩ => ⟨S512, .f32⟩
  | .hbm, ⟨4, _⟩ => ⟨S512x32, .f32⟩
  | .hbm, ⟨5, _⟩ => ⟨S32, .f32⟩
  | .hbm, ⟨6, _⟩ => ⟨S1x8x262144, .f32⟩
  | .hbm, ⟨7, _⟩ => ⟨S_, .i32⟩
  | .hbm, ⟨8, _⟩ => ⟨S1x100000x32, .i32⟩
  | .hbm, ⟨9, _⟩ => ⟨S1x100000x32, .i1⟩
  | .hbm, ⟨10, _⟩ => ⟨S1x1x3200000, .i32⟩
  | .hbm, ⟨11, _⟩ => ⟨S1x8x3200000, .i32⟩
  | .hbm, ⟨12, _⟩ => ⟨S_, .i32⟩
  | .hbm, ⟨13, _⟩ => ⟨S1x8x3200000, .i32⟩
  | .hbm, ⟨14, _⟩ => ⟨S1x8x3200000, .i1⟩
  | .hbm, ⟨15, _⟩ => ⟨S_, .i32⟩
  | .hbm, ⟨16, _⟩ => ⟨S1x8x3200000, .i32⟩
  | .hbm, ⟨17, _⟩ => ⟨S1x8x3200000, .i32⟩
  | .hbm, ⟨18, _⟩ => ⟨S1x8x3200000, .i32⟩
  | .hbm, ⟨19, _⟩ => ⟨S8x3200000x1, .i32⟩
  | .hbm, ⟨20, _⟩ => ⟨S1, .i32⟩
  | .hbm, ⟨21, _⟩ => ⟨S_, .i32⟩
  | .hbm, ⟨22, _⟩ => ⟨S8x3200000x1, .i32⟩
  | .hbm, ⟨23, _⟩ => ⟨S8x3200000x1, .i1⟩
  | .hbm, ⟨24, _⟩ => ⟨S1x1x1, .i32⟩
  | .hbm, ⟨25, _⟩ => ⟨S8x3200000x1, .i32⟩
  | .hbm, ⟨26, _⟩ => ⟨S8x3200000x1, .i1⟩
  | .hbm, ⟨27, _⟩ => ⟨S8x3200000x1, .i1⟩
  | .hbm, ⟨28, _⟩ => ⟨S_, .i1⟩
  | .hbm, ⟨29, _⟩ => ⟨S8x3200000, .i1⟩
  | .hbm, ⟨30, _⟩ => ⟨S1x8x3200000, .f32⟩
  | .hbm, ⟨31, _⟩ => ⟨S1x8x3200000, .i1⟩
  | .hbm, ⟨32, _⟩ => ⟨S_, .f32⟩
  | .hbm, ⟨33, _⟩ => ⟨S1x8x3200000, .f32⟩
  | .hbm, ⟨34, _⟩ => ⟨S1x8x3200000, .f32⟩
  | .hbm, ⟨35, _⟩ => ⟨S1x8x100000x32, .f32⟩
  | .hbm, ⟨36, _⟩ => ⟨S1x1x100000x32, .i1⟩
  | .hbm, ⟨37, _⟩ => ⟨S1x1x100000x32, .f32⟩
  | .hbm, ⟨38, _⟩ => ⟨S1x8x100000x32, .f32⟩
  | .hbm, ⟨39, _⟩ => ⟨S1x8x100000x32, .f32⟩
  | .hbm, ⟨40, _⟩ => ⟨S1x100000x8x32, .f32⟩
  | .hbm, ⟨41, _⟩ => ⟨S1x100000x256, .f32⟩
  | .hbm, ⟨42, _⟩ => ⟨S1x100000x256, .bf16⟩
  | .hbm, ⟨43, _⟩ => ⟨S100000x256, .bf16⟩
  | .hbm, ⟨44, _⟩ => ⟨S256x512, .bf16⟩
  | .hbm, ⟨45, _⟩ => ⟨S512x32, .bf16⟩
  | .hbm, ⟨46, _⟩ => ⟨S100000x32, .f32⟩
  | .hbm, ⟨47, _⟩ => ⟨S1x100000x32, .f32⟩
  | .local _ .vmem, ⟨0, _⟩ => ⟨S2000x256, .bf16⟩
  | .local _ .vmem, ⟨1, _⟩ => ⟨S2000x256, .bf16⟩
  | .local _ .vmem, ⟨2, _⟩ => ⟨S256x512, .bf16⟩
  | .local _ .vmem, ⟨3, _⟩ => ⟨S512, .f32⟩
  | .local _ .vmem, ⟨4, _⟩ => ⟨S512x32, .bf16⟩
  | .local _ .vmem, ⟨5, _⟩ => ⟨S32, .f32⟩
  | .local _ .vmem, ⟨6, _⟩ => ⟨S2000x32, .f32⟩
  | .local _ .vmem, ⟨7, _⟩ => ⟨S2000x32, .f32⟩
  | _, _ => ⟨S1x8x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x8x64x64x64_S1x8x262144 : S1x8x64x64x64.ShapeCasts S1x8x262144
  bcast_S_S1x100000x32 : S_.BroadcastsInDim S1x100000x32 (![] : Fin 0 → Fin S1x100000x32.rank)
  shapeCasts_S1x100000x32_S1x1x3200000 : S1x100000x32.ShapeCasts S1x1x3200000
  bcast_S1x1x3200000_S1x8x3200000_0_1_2 : S1x1x3200000.BroadcastsInDim S1x8x3200000 (![0, 1, 2] : Fin 3 → Fin S1x8x3200000.rank)
  bcast_S_S1x8x3200000 : S_.BroadcastsInDim S1x8x3200000 (![] : Fin 0 → Fin S1x8x3200000.rank)
  shapeCasts_S1x8x3200000_S8x3200000x1 : S1x8x3200000.ShapeCasts S8x3200000x1
  bcast_S_S8x3200000x1 : S_.BroadcastsInDim S8x3200000x1 (![] : Fin 0 → Fin S8x3200000x1.rank)
  bcast_S1_S1x1x1_2 : S1.BroadcastsInDim S1x1x1 (![2] : Fin 1 → Fin S1x1x1.rank)
  bcast_S1x1x1_S8x3200000x1_0_1_2 : S1x1x1.BroadcastsInDim S8x3200000x1 (![0, 1, 2] : Fin 3 → Fin S8x3200000x1.rank)
  reducesTo_S8x3200000x1_S8x3200000_d2 : S8x3200000x1.ReducesTo [2] S8x3200000
  h_S_ : 0 < S_.numel
  bcast_S8x3200000_S1x8x3200000_1_2 : S8x3200000.BroadcastsInDim S1x8x3200000 (![1, 2] : Fin 2 → Fin S1x8x3200000.rank)
  shapeCasts_S1x8x3200000_S1x8x100000x32 : S1x8x3200000.ShapeCasts S1x8x100000x32
  bcast_S1x100000x32_S1x1x100000x32_0_2_3 : S1x100000x32.BroadcastsInDim S1x1x100000x32 (![0, 2, 3] : Fin 3 → Fin S1x1x100000x32.rank)
  bcast_S1x1x100000x32_S1x8x100000x32_0_1_2_3 : S1x1x100000x32.BroadcastsInDim S1x8x100000x32 (![0, 1, 2, 3] : Fin 4 → Fin S1x8x100000x32.rank)
  transposes_S1x8x100000x32_S1x100000x8x32_0_2_1_3 : S1x8x100000x32.Transposes [0, 2, 1, 3] S1x100000x8x32
  shapeCasts_S1x100000x8x32_S1x100000x256 : S1x100000x8x32.ShapeCasts S1x100000x256
  bitsLt_bf16_f32 : FTy.bits .bf16 < FTy.bits .f32
  shapeCasts_S1x100000x256_S100000x256 : S1x100000x256.ShapeCasts S100000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512_S512_0 : ∀ a, (![0] : Fin 1 → Nat) a + S512.size a ≤ S512.size a
  h_S512 : 0 < S512.numel
  shapeCasts_S512_S1x512 : S512.ShapeCasts S1x512
  broadcasts_S1x512_S2000x512 : S1x512.Broadcasts S2000x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  bcast_S100000x32_S1x100000x32_1_2 : S100000x32.BroadcastsInDim S1x100000x32 (![1, 2] : Fin 2 → Fin S1x100000x32.rank)
  gather_S1x8x262144_S8x3200000x1_S1x8x3200000_0_2_1_0_2_2_111_wf : GatherDims.WF S1x8x262144 S8x3200000x1 S1x8x3200000 [0] [2] [1] [2] [0] 2 ![1, 1, 1]
  dot_S2000x256_S256x512_S2000x512_1_0_0_1_n_n_wf : DotDims.WF S2000x256 S256x512 S2000x512 [1] [0] [0] [1] [] []
  dot_S2000x512_S512x32_S2000x32_1_0_0_1_n_n_wf : DotDims.WF S2000x512 S512x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .bf16 = 32 ∨ (Rect.block (s := S100000x256) S2000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S512x32.size a
  hwx0_3 : ∀ i : grid0.Coords, EltTy.bits .bf16 = 32 ∨ (Rect.block (s := S512x32) S512x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x32.size a ≤ S100000x32.size a
  hwx0_5 : ∀ i : grid0.Coords, EltTy.bits .f32 = 32 ∨ (Rect.block (s := S100000x32) S2000x32.size (cc0_transform_5 i) (hinb0_5 i)).WholeWords (EltTy.packing .f32)

variable [Facts₀]

def gather_S1x8x262144_S8x3200000x1_S1x8x3200000_0_2_1_0_2_2_111 : GatherDims S1x8x262144 S8x3200000x1 S1x8x3200000 where
  offsetDims := [0]
  collapsedSliceDims := [2]
  operandBatchingDims := [1]
  startIndicesBatchingDims := [0]
  startIndexMap := [2]
  indexVectorDim := 2
  sliceSizes := ![1, 1, 1]
  wf := gather_S1x8x262144_S8x3200000x1_S1x8x3200000_0_2_1_0_2_2_111_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x32_S2000x32_1_0_0_1_n_n : DotDims S2000x512 S512x32 S2000x32 where
  lhsContracting := [1]
  rhsContracting := [0]
  lhsNonContracting := [0]
  rhsNonContracting := [1]
  lhsBatch := []
  rhsBatch := []
  wf := dot_S2000x512_S512x32_S2000x32_1_0_0_1_n_n_wf

abbrev win0_0 : Pipeline.Window sig grid0 :=
  Pipeline.Window.ofSpec (Memref.whole main_v14) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S2000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x8x64x64x64 : Shape := ⟨5, ![1, 8, 64, 64, 64]⟩
abbrev S1x100000x32 : Shape := ⟨3, ![1, 100000, 32]⟩
abbrev S256x512 : Shape := ⟨2, ![256, 512]⟩
abbrev S512 : Shape := ⟨1, ![512]⟩
abbrev S512x32 : Shape := ⟨2, ![512, 32]⟩
abbrev S32 : Shape := ⟨1, ![32]⟩
abbrev S1x8x262144 : Shape := ⟨3, ![1, 8, 262144]⟩
abbrev S_ : Shape := ⟨0, ![]⟩
abbrev S1x1x3200000 : Shape := ⟨3, ![1, 1, 3200000]⟩
abbrev S1x8x3200000 : Shape := ⟨3, ![1, 8, 3200000]⟩
abbrev S8x3200000x1 : Shape := ⟨3, ![8, 3200000, 1]⟩
abbrev S1 : Shape := ⟨1, ![1]⟩
abbrev S1x1x1 : Shape := ⟨3, ![1, 1, 1]⟩
abbrev S8x3200000 : Shape := ⟨2, ![8, 3200000]⟩
abbrev S1x8x100000x32 : Shape := ⟨4, ![1, 8, 100000, 32]⟩
abbrev S1x1x100000x32 : Shape := ⟨4, ![1, 1, 100000, 32]⟩
abbrev S1x100000x8x32 : Shape := ⟨4, ![1, 100000, 8, 32]⟩
abbrev S1x100000x256 : Shape := ⟨3, ![1, 100000, 256]⟩
abbrev S1x100000x512 : Shape := ⟨3, ![1, 100000, 512]⟩
abbrev S1x1x512 : Shape := ⟨3, ![1, 1, 512]⟩
abbrev S1x1x32 : Shape := ⟨3, ![1, 1, 32]⟩

abbrev nBuf : Space → Nat
  | .hbm => 53
  | .vmem => 0
  | .smem => 0
  | _ => 0

abbrev bufTy : (tb : Table) → Fin (tcTables nBuf tb) → BufTy
  | .hbm, ⟨0, _⟩ => ⟨S1x8x64x64x64, .f32⟩
  | .hbm, ⟨1, _⟩ => ⟨S1x100000x32, .i32⟩
  | .hbm, ⟨2, _⟩ => ⟨S256x512, .f32⟩
  | .hbm, ⟨3, _⟩ => ⟨S512, .f32⟩
  | .hbm, ⟨4, _⟩ => ⟨S512x32, .f32⟩
  | .hbm, ⟨5, _⟩ => ⟨S32, .f32⟩
  | .hbm, ⟨6, _⟩ => ⟨S1x8x262144, .f32⟩
  | .hbm, ⟨7, _⟩ => ⟨S_, .i32⟩
  | .hbm, ⟨8, _⟩ => ⟨S1x100000x32, .i32⟩
  | .hbm, ⟨9, _⟩ => ⟨S1x100000x32, .i1⟩
  | .hbm, ⟨10, _⟩ => ⟨S1x1x3200000, .i32⟩
  | .hbm, ⟨11, _⟩ => ⟨S1x8x3200000, .i32⟩
  | .hbm, ⟨12, _⟩ => ⟨S_, .i32⟩
  | .hbm, ⟨13, _⟩ => ⟨S1x8x3200000, .i32⟩
  | .hbm, ⟨14, _⟩ => ⟨S1x8x3200000, .i1⟩
  | .hbm, ⟨15, _⟩ => ⟨S_, .i32⟩
  | .hbm, ⟨16, _⟩ => ⟨S1x8x3200000, .i32⟩
  | .hbm, ⟨17, _⟩ => ⟨S1x8x3200000, .i32⟩
  | .hbm, ⟨18, _⟩ => ⟨S1x8x3200000, .i32⟩
  | .hbm, ⟨19, _⟩ => ⟨S8x3200000x1, .i32⟩
  | .hbm, ⟨20, _⟩ => ⟨S1, .i32⟩
  | .hbm, ⟨21, _⟩ => ⟨S_, .i32⟩
  | .hbm, ⟨22, _⟩ => ⟨S8x3200000x1, .i32⟩
  | .hbm, ⟨23, _⟩ => ⟨S8x3200000x1, .i1⟩
  | .hbm, ⟨24, _⟩ => ⟨S1x1x1, .i32⟩
  | .hbm, ⟨25, _⟩ => ⟨S8x3200000x1, .i32⟩
  | .hbm, ⟨26, _⟩ => ⟨S8x3200000x1, .i1⟩
  | .hbm, ⟨27, _⟩ => ⟨S8x3200000x1, .i1⟩
  | .hbm, ⟨28, _⟩ => ⟨S_, .i1⟩
  | .hbm, ⟨29, _⟩ => ⟨S8x3200000, .i1⟩
  | .hbm, ⟨30, _⟩ => ⟨S1x8x3200000, .f32⟩
  | .hbm, ⟨31, _⟩ => ⟨S1x8x3200000, .i1⟩
  | .hbm, ⟨32, _⟩ => ⟨S_, .f32⟩
  | .hbm, ⟨33, _⟩ => ⟨S1x8x3200000, .f32⟩
  | .hbm, ⟨34, _⟩ => ⟨S1x8x3200000, .f32⟩
  | .hbm, ⟨35, _⟩ => ⟨S1x8x100000x32, .f32⟩
  | .hbm, ⟨36, _⟩ => ⟨S1x1x100000x32, .i1⟩
  | .hbm, ⟨37, _⟩ => ⟨S1x1x100000x32, .f32⟩
  | .hbm, ⟨38, _⟩ => ⟨S1x8x100000x32, .f32⟩
  | .hbm, ⟨39, _⟩ => ⟨S1x8x100000x32, .f32⟩
  | .hbm, ⟨40, _⟩ => ⟨S1x100000x8x32, .f32⟩
  | .hbm, ⟨41, _⟩ => ⟨S1x100000x256, .f32⟩
  | .hbm, ⟨42, _⟩ => ⟨S1x100000x512, .f32⟩
  | .hbm, ⟨43, _⟩ => ⟨S1x1x512, .f32⟩
  | .hbm, ⟨44, _⟩ => ⟨S1x100000x512, .f32⟩
  | .hbm, ⟨45, _⟩ => ⟨S1x100000x512, .f32⟩
  | .hbm, ⟨46, _⟩ => ⟨S_, .f32⟩
  | .hbm, ⟨47, _⟩ => ⟨S1x100000x512, .f32⟩
  | .hbm, ⟨48, _⟩ => ⟨S1x100000x512, .f32⟩
  | .hbm, ⟨49, _⟩ => ⟨S1x100000x32, .f32⟩
  | .hbm, ⟨50, _⟩ => ⟨S1x1x32, .f32⟩
  | .hbm, ⟨51, _⟩ => ⟨S1x100000x32, .f32⟩
  | .hbm, ⟨52, _⟩ => ⟨S1x100000x32, .f32⟩
  | _, _ => ⟨S1x8x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_call1_cst : Ref sig .tc := ⟨.hbm, 46, rfl⟩
abbrev main_call1_v0 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]

class Facts₀ : Prop where
  shapeCasts_S1x8x64x64x64_S1x8x262144 : S1x8x64x64x64.ShapeCasts S1x8x262144
  bcast_S_S1x100000x32 : S_.BroadcastsInDim S1x100000x32 (![] : Fin 0 → Fin S1x100000x32.rank)
  shapeCasts_S1x100000x32_S1x1x3200000 : S1x100000x32.ShapeCasts S1x1x3200000
  bcast_S1x1x3200000_S1x8x3200000_0_1_2 : S1x1x3200000.BroadcastsInDim S1x8x3200000 (![0, 1, 2] : Fin 3 → Fin S1x8x3200000.rank)
  bcast_S_S1x8x3200000 : S_.BroadcastsInDim S1x8x3200000 (![] : Fin 0 → Fin S1x8x3200000.rank)
  shapeCasts_S1x8x3200000_S8x3200000x1 : S1x8x3200000.ShapeCasts S8x3200000x1
  bcast_S_S8x3200000x1 : S_.BroadcastsInDim S8x3200000x1 (![] : Fin 0 → Fin S8x3200000x1.rank)
  bcast_S1_S1x1x1_2 : S1.BroadcastsInDim S1x1x1 (![2] : Fin 1 → Fin S1x1x1.rank)
  bcast_S1x1x1_S8x3200000x1_0_1_2 : S1x1x1.BroadcastsInDim S8x3200000x1 (![0, 1, 2] : Fin 3 → Fin S8x3200000x1.rank)
  reducesTo_S8x3200000x1_S8x3200000_d2 : S8x3200000x1.ReducesTo [2] S8x3200000
  h_S_ : 0 < S_.numel
  bcast_S8x3200000_S1x8x3200000_1_2 : S8x3200000.BroadcastsInDim S1x8x3200000 (![1, 2] : Fin 2 → Fin S1x8x3200000.rank)
  shapeCasts_S1x8x3200000_S1x8x100000x32 : S1x8x3200000.ShapeCasts S1x8x100000x32
  bcast_S1x100000x32_S1x1x100000x32_0_2_3 : S1x100000x32.BroadcastsInDim S1x1x100000x32 (![0, 2, 3] : Fin 3 → Fin S1x1x100000x32.rank)
  bcast_S1x1x100000x32_S1x8x100000x32_0_1_2_3 : S1x1x100000x32.BroadcastsInDim S1x8x100000x32 (![0, 1, 2, 3] : Fin 4 → Fin S1x8x100000x32.rank)
  transposes_S1x8x100000x32_S1x100000x8x32_0_2_1_3 : S1x8x100000x32.Transposes [0, 2, 1, 3] S1x100000x8x32
  shapeCasts_S1x100000x8x32_S1x100000x256 : S1x100000x8x32.ShapeCasts S1x100000x256
  bcast_S512_S1x1x512_2 : S512.BroadcastsInDim S1x1x512 (![2] : Fin 1 → Fin S1x1x512.rank)
  bcast_S1x1x512_S1x100000x512_0_1_2 : S1x1x512.BroadcastsInDim S1x100000x512 (![0, 1, 2] : Fin 3 → Fin S1x100000x512.rank)
  bcast_S_S1x100000x512 : S_.BroadcastsInDim S1x100000x512 (![] : Fin 0 → Fin S1x100000x512.rank)
  bcast_S32_S1x1x32_2 : S32.BroadcastsInDim S1x1x32 (![2] : Fin 1 → Fin S1x1x32.rank)
  bcast_S1x1x32_S1x100000x32_0_1_2 : S1x1x32.BroadcastsInDim S1x100000x32 (![0, 1, 2] : Fin 3 → Fin S1x100000x32.rank)
  gather_S1x8x262144_S8x3200000x1_S1x8x3200000_0_2_1_0_2_2_111_wf : GatherDims.WF S1x8x262144 S8x3200000x1 S1x8x3200000 [0] [2] [1] [2] [0] 2 ![1, 1, 1]
  dot_S1x100000x256_S256x512_S1x100000x512_2_0_01_1_n_n_wf : DotDims.WF S1x100000x256 S256x512 S1x100000x512 [2] [0] [0, 1] [1] [] []
  dot_S1x100000x512_S512x32_S1x100000x32_2_0_01_1_n_n_wf : DotDims.WF S1x100000x512 S512x32 S1x100000x32 [2] [0] [0, 1] [1] [] []

variable [Facts₀]

def gather_S1x8x262144_S8x3200000x1_S1x8x3200000_0_2_1_0_2_2_111 : GatherDims S1x8x262144 S8x3200000x1 S1x8x3200000 where
  offsetDims := [0]
  collapsedSliceDims := [2]
  operandBatchingDims := [1]
  startIndicesBatchingDims := [0]
  startIndexMap := [2]
  indexVectorDim := 2
  sliceSizes := ![1, 1, 1]
  wf := gather_S1x8x262144_S8x3200000x1_S1x8x3200000_0_2_1_0_2_2_111_wf
def dot_S1x100000x256_S256x512_S1x100000x512_2_0_01_1_n_n : DotDims S1x100000x256 S256x512 S1x100000x512 where
  lhsContracting := [2]
  rhsContracting := [0]
  lhsNonContracting := [0, 1]
  rhsNonContracting := [1]
  lhsBatch := []
  rhsBatch := []
  wf := dot_S1x100000x256_S256x512_S1x100000x512_2_0_01_1_n_n_wf
def dot_S1x100000x512_S512x32_S1x100000x32_2_0_01_1_n_n : DotDims S1x100000x512 S512x32 S1x100000x32 where
  lhsContracting := [2]
  rhsContracting := [0]
  lhsNonContracting := [0, 1]
  rhsNonContracting := [1]
  lhsBatch := []
  rhsBatch := []
  wf := dot_S1x100000x512_S512x32_S1x100000x32_2_0_01_1_n_n_wf

class Facts : Prop extends Facts₀ where

variable [Facts]
-- ==== Proof.LibMatmul2.lean ====
/-
  A rank-2 by rank-2 matrix product with one contracted axis on each side and no batch axis, read at an entry of the
  result, at the ideal values: the sum over the contracted coordinate of the products of the operands' entries. Four
  arrangements of the contracted axes, for a product into a zero accumulator:

  * `matmul_nn_apply`: rows by columns, `out[a, b] = Σ_c A[a, c] · B[c, b]`;
  * `matmul_tn_apply`: the left operand contracted on its rows, `out[a, b] = Σ_c A[c, a] · B[c, b]`;
  * `matmul_nt_apply`: the right operand contracted on its columns, `out[a, b] = Σ_c A[a, c] · B[b, c]`;
  * `matmul_tt_apply`: both, `out[a, b] = Σ_c A[c, a] · B[b, c]`.
-/
import Idealize.ShloMosaic.PureOps.Ideal.Laws
import Idealize.ShloMosaic.Lib.ValueIdx

namespace LibMatmul2

open Idealize.ShloMosaic Idealize.ShloMosaic.ValueIdx

variable {m k n : Nat} {φ₁ φ₂ : FTy}

/-- Rows by columns. -/
theorem matmul_nn_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand contracted on its rows. -/
theorem matmul_tn_apply
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant _ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The right operand contracted on its columns. -/
theorem matmul_nt_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The left operand contracted on its rows and the right one on its columns. -/
theorem matmul_tt_apply
    (w : DotDims.WF ⟨2, ![k, m]⟩ ⟨2, ![n, k]⟩ ⟨2, ![m, n]⟩ [0] [1] [1] [0] [] [])
    (prec : Option ContractPrecision) (A : FVec Ideal ⟨2, ![k, m]⟩ φ₁) (B : FVec Ideal ⟨2, ![n, k]⟩ φ₂) (a : Fin m) (b : Fin n) :
    FloatOps.matmul (⟨[0], [1], [1], [0], [], [], w⟩ : DotDims _ _ _) prec A B (constant _ .f32 0x00000000#32) (ix2 a b)
      = ∑ c : Fin k, A (ix2 c a) * B (ix2 b c) := by
  rw [Ideal.matmul_constant_zero_apply,
    ← Equiv.sum_comp (contrEquiv1 (⟨[0], [1], [1], [0], [], [], w⟩ : DotDims _ _ _) k rfl rfl).symm]
  refine Finset.sum_congr rfl fun c _ => ?_
  have c2 := contrEquiv1_symm_val (⟨[0], [1], [1], [0], [], [], w⟩ : DotDims ⟨2, ![k, m]⟩ ⟨2, ![n, k]⟩ ⟨2, ![m, n]⟩) k rfl rfl c
  have l2 : (⟨[0], [1], [1], [0], [], [], w⟩ : DotDims ⟨2, ![k, m]⟩ ⟨2, ![n, k]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [1], [1], [0], [], [], w⟩ : DotDims ⟨2, ![k, m]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end LibMatmul2
-- ==== Proof.Payload.lean ====
/-
  The value one grid point stores, read at an entry. The body loads a [2000, 256] block of feature rows x0, the two
  weight matrices x1 [256, 512] and x3 [512, 32] and the two bias vectors x2 [512] and x4 [32], and stores

      (max (x0 · x1 + row x2) z) · x3 + row x4

  where `·` is a matrix product into a zero accumulator, `row v` spreads a vector over the 2000 rows, and z is the
  f32 zero word. At the ideal values a change of float format is the identity and a product into a zero accumulator is
  the plain sum over the contracted coordinate, so at row p and column q of the block the stored value is

      Σ_h max (Σ_d x0[p, d] · x1[d, h] + x2[h]) z · x3[h, q]  +  x4[q].
-/
import proofs.«178317_j49435073577117_2_alg».proof.Proof.Gen.KernelIdeal.Skeleton
import proofs.«178317_j49435073577117_2_alg».proof.Proof.LibMatmul2
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The first bias, viewed as one row and spread over the block's rows, reads at (p, h) the bias at h. -/
theorem biasRow512 (b : FVec Ideal S512 .f32) (p : Fin 2000) (h : Fin 512) :
    broadcastTo S2000x512 (shapeCast S1x512 b shapeCasts_S512_S1x512) broadcasts_S1x512_S2000x512 (ix2 p h) = b (ix1 h) :=
  (broadcastTo_1b_ab_apply _ _ p h).trans (shapeCast_a_1a_apply b _ 0 h)

/-- The second bias likewise, at (p, q). -/
theorem biasRow32 (b : FVec Ideal S32 .f32) (p : Fin 2000) (q : Fin 32) :
    broadcastTo S2000x32 (shapeCast S1x32 b shapeCasts_S32_S1x32) broadcasts_S1x32_S2000x32 (ix2 p q) = b (ix1 q) :=
  (broadcastTo_1b_ab_apply _ _ p q).trans (shapeCast_a_1a_apply b _ 0 q)

/-- The rectified first layer of the block at row p, hidden unit h: the row's product with column h of the first
    weights, plus the bias, clamped below at the zero word's value (the change to bf16 is the identity). -/
theorem layer1_apply (x0 : FVec Ideal S2000x256 .bf16) (x1 : FVec Ideal S256x512 .bf16) (x2 : FVec Ideal S512 .f32)
    (p : Fin 2000) (h : Fin 512) :
    (truncf .bf16
        (maximumf
          (addf (matmul dot_S2000x256_S256x512_S2000x512_1_0_0_1_n_n none x0 x1 (constant S2000x512 .f32 0x00000000#32))
            (broadcastTo S2000x512 (shapeCast S1x512 x2 shapeCasts_S512_S1x512) broadcasts_S1x512_S2000x512))
          (broadcast S2000x512 (Scalar.ofBits .f32 0x00000000#32)))
        bitsLt_bf16_f32 : FVec Ideal S2000x512 .bf16) (ix2 p h)
      = max ((∑ d : Fin 256, x0 (ix2 p d) * x1 (ix2 d h)) + x2 (ix1 h)) (Ideal.ofBits .f32 0x00000000#32) := by
  show max (matmul dot_S2000x256_S256x512_S2000x512_1_0_0_1_n_n none x0 x1 (constant S2000x512 .f32 0x00000000#32) (ix2 p h)
      + broadcastTo S2000x512 (shapeCast S1x512 x2 shapeCasts_S512_S1x512) broadcasts_S1x512_S2000x512 (ix2 p h))
      (Ideal.ofBits .f32 0x00000000#32) = _
  rw [biasRow512]
  refine congrArg (fun s => max (s + x2 (ix1 h)) (Ideal.ofBits .f32 0x00000000#32)) ?_
  exact LibMatmul2.matmul_nn_apply _ none x0 x1 p h

/-- What the body stores, at row p and column q of the block. -/
theorem pay_apply (x0 : Vec Ideal S2000x256 .bf16) (x1 : Vec Ideal S256x512 .bf16) (x2 : Vec Ideal S512 .f32)
    (x3 : Vec Ideal S512x32 .bf16) (x4 : Vec Ideal S32 .f32) (p : Fin 2000) (q : Fin 32) :
    k0_pay1 (F := Ideal) x0 x1 x2 x3 x4 (ix2 p q)
      = (∑ h : Fin 512, max ((∑ d : Fin 256, x0 (ix2 p d) * x1 (ix2 d h)) + x2 (ix1 h)) (Ideal.ofBits .f32 0x00000000#32)
            * x3 (ix2 h q)) + x4 (ix1 q) := by
  unfold k0_pay1
  simp only [shapeCast_self]
  refine (addf_apply _ _ _).trans ?_
  rw [biasRow32 x4 p q]
  refine congrArg (fun s => s + x4 (ix1 q)) ?_
  refine (LibMatmul2.matmul_nn_apply (φ₁ := .bf16) (φ₂ := .bf16) _ none _ _ p q).trans ?_
  refine Finset.sum_congr rfl fun h _ => ?_
  exact congrArg (· * x3 (ix2 h q)) (layer1_apply x0 x1 x2 p h)

end Cert.KernelIdeal.Body

end
-- ==== Proof.RegionArray.lean ====
/-
  From blocks to the array. Grid point t of the fifty loads rows 2000·t … 2000·t + 1999 of the feature matrix
  (all 256 columns) together with the whole of both weight matrices and both bias vectors, and writes back rows
  2000·t … 2000·t + 1999 of the [100000, 32] result. So what point t writes back is block t of ONE function of the five
  arrays as the region finds them — at row n and column j,

      Σ_h max (Σ_d A[n, d] · W1[d, h] + b1[h]) z · W2[h, j]  +  b2[j]

  — and since row n lies in block n / 2000, the fifty blocks cover the array: after the region it IS that function.
  Each block read is stated for an ARBITRARY array in the window's place, and only then used at the array the region
  finds: what that array holds (the host operations before the region, folded over the launch memory) plays no part here.
-/
import proofs.«178317_j49435073577117_2_alg».proof.Proof.Gen.KernelIdeal.Frame
import proofs.«178317_j49435073577117_2_alg».proof.Proof.Payload
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen

variable (m : (ℓ : Loc nD τ sig) → Buf (Elt Ideal) ℓ)

theorem off2 : (![0, 0] : Fin 2 → Nat) = fun _ => 0 := funext fun a => by fin_cases a <;> rfl
theorem off1 : (![0] : Fin 1 → Nat) = fun _ => 0 := funext fun a => by fin_cases a <;> rfl

/-- The perceptron's rows as a [100000, 32] array, from a feature matrix, two weight matrices and two bias vectors. -/
def rowsOut (A : S100000x256.Idx → EReal) (W1 : S256x512.Idx → EReal) (b1 : S512.Idx → EReal)
    (W2 : S512x32.Idx → EReal) (b2 : S32.Idx → EReal) : S100000x32.Idx → EReal := fun i =>
  (∑ h : Fin 512, max ((∑ d : Fin 256, A (ix2 (⟨(i 0).val, (i 0).isLt⟩ : Fin 100000) d) * W1 (ix2 d h)) + b1 (ix1 h))
        (Ideal.ofBits .f32 0x00000000#32) * W2 (ix2 h (⟨(i 1).val, (i 1).isLt⟩ : Fin 32)))
    + b2 (ix1 (⟨(i 1).val, (i 1).isLt⟩ : Fin 32))

/-- The result array after the region, as that function of the five arrays the region finds in its input windows. -/
abbrev regionOut (c : Dev nD) : S100000x32.Idx → EReal :=
  rowsOut (V m c (Pipeline.arrRef spec0 0)) (V m c (Pipeline.arrRef spec0 1)) (V m c (Pipeline.arrRef spec0 2))
    (V m c (Pipeline.arrRef spec0 3)) (V m c (Pipeline.arrRef spec0 4))

/-- Where each window's block sits at point t: the feature rows and the result rows at block t of their first axis,
    everything else at block 0. Decided over the fifty points. -/
theorem blockAt : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## The windows' blocks, read off an arbitrary array -/

/-- Window 0's block at point t reads, at row p and column d, any [100000, 256] array at row 2000·t + p, column d. -/
theorem read_features (t : Fin cfg0.N) (A : S100000x256.Idx → EReal) (p : Fin 2000) (d : Fin 256) (n : Fin 100000)
    (hn : n.val = 2000 * t.val + p.val) :
    ((cfg0.win 0).blk t).view.read (Elt Ideal) A (ix2 p d) = A (ix2 n d) := by
  obtain ⟨e0, e1, -⟩ := blockAt t
  rw [View.read_apply]
  refine congrArg A ?_
  funext a
  apply Fin.ext
  match a with
  | ⟨0, _⟩ => show win0_0.index t (0 : Fin 2) * 2000 + 1 * p.val = n.val; rw [e0, hn]; omega
  | ⟨1, _⟩ => show win0_0.index t (1 : Fin 2) * 256 + 1 * d.val = d.val; rw [e1]; omega

/-- Window 1's block at every point is the whole of any [256, 512] array. -/
theorem read_weights1 (t : Fin cfg0.N) (A : S256x512.Idx → EReal) :
    ((cfg0.win 1).blk t).view.read (Elt Ideal) A = A := by
  obtain ⟨-, -, e0, e1, -⟩ := blockAt t
  funext y
  rw [View.read_apply]
  refine congrArg A ?_
  funext a
  apply Fin.ext
  match a with
  | ⟨0, _⟩ => show win0_1.index t (0 : Fin 2) * 256 + 1 * (y 0).val = (y 0).val; rw [e0]; omega
  | ⟨1, _⟩ => show win0_1.index t (1 : Fin 2) * 512 + 1 * (y 1).val = (y 1).val; rw [e1]; omega

/-- Window 2's block is the whole of any [512] array. -/
theorem read_bias1 (t : Fin cfg0.N) (A : S512.Idx → EReal) :
    ((cfg0.win 2).blk t).view.read (Elt Ideal) A = A := by
  obtain ⟨-, -, -, -, e0, -⟩ := blockAt t
  funext y
  rw [View.read_apply]
  refine congrArg A ?_
  funext a
  apply Fin.ext
  match a with
  | ⟨0, _⟩ => show win0_2.index t (0 : Fin 1) * 512 + 1 * (y 0).val = (y 0).val; rw [e0]; omega

/-- Window 3's block is the whole of any [512, 32] array. -/
theorem read_weights2 (t : Fin cfg0.N) (A : S512x32.Idx → EReal) :
    ((cfg0.win 3).blk t).view.read (Elt Ideal) A = A := by
  obtain ⟨-, -, -, -, -, e0, e1, -⟩ := blockAt t
  funext y
  rw [View.read_apply]
  refine congrArg A ?_
  funext a
  apply Fin.ext
  match a with
  | ⟨0, _⟩ => show win0_3.index t (0 : Fin 2) * 512 + 1 * (y 0).val = (y 0).val; rw [e0]; omega
  | ⟨1, _⟩ => show win0_3.index t (1 : Fin 2) * 32 + 1 * (y 1).val = (y 1).val; rw [e1]; omega

/-- Window 4's block is the whole of any [32] array. -/
theorem read_bias2 (t : Fin cfg0.N) (A : S32.Idx → EReal) :
    ((cfg0.win 4).blk t).view.read (Elt Ideal) A = A := by
  obtain ⟨-, -, -, -, -, -, -, e0, -⟩ := blockAt t
  funext y
  rw [View.read_apply]
  refine congrArg A ?_
  funext a
  apply Fin.ext
  match a with
  | ⟨0, _⟩ => show win0_4.index t (0 : Fin 1) * 32 + 1 * (y 0).val = (y 0).val; rw [e0]; omega

/-- Window 5's block at point t sits, at row p and column q, at row 2000·t + p, column q of any [100000, 32] array. -/
theorem read_result (t : Fin cfg0.N) (G : S100000x32.Idx → EReal) (p : Fin 2000) (q : Fin 32) (n : Fin 100000)
    (hn : n.val = 2000 * t.val + p.val) :
    ((cfg0.win 5).blk t).view.read (Elt Ideal) G (ix2 p q) = G (ix2 n q) := by
  obtain ⟨-, -, -, -, -, -, -, -, e0, e1⟩ := blockAt t
  rw [View.read_apply]
  refine congrArg G ?_
  funext a
  apply Fin.ext
  match a with
  | ⟨0, _⟩ => show win0_5.index t (0 : Fin 2) * 2000 + 1 * p.val = n.val; rw [e0, hn]; omega
  | ⟨1, _⟩ => show win0_5.index t (1 : Fin 2) * 32 + 1 * q.val = q.val; rw [e1]; omega

/-! ## The same, at the arrays the region finds -/

theorem features_apply (c : Dev nD) (t : Fin cfg0.N) (p : Fin 2000) (d : Fin 256) (n : Fin 100000)
    (hn : n.val = 2000 * t.val + p.val) :
    iblk m c 0 t (ix2 p d) = V m c (Pipeline.arrRef spec0 0) (ix2 n d) := by
  unfold iblk
  exact read_features t _ p d n hn

theorem weights1_eq (c : Dev nD) (t : Fin cfg0.N) : iblk m c 1 t = V m c (Pipeline.arrRef spec0 1) := by
  unfold iblk
  exact read_weights1 t _

theorem bias1_eq (c : Dev nD) (t : Fin cfg0.N) : iblk m c 2 t = V m c (Pipeline.arrRef spec0 2) := by
  unfold iblk
  exact read_bias1 t _

theorem weights2_eq (c : Dev nD) (t : Fin cfg0.N) : iblk m c 3 t = V m c (Pipeline.arrRef spec0 3) := by
  unfold iblk
  exact read_weights2 t _

theorem bias2_eq (c : Dev nD) (t : Fin cfg0.N) : iblk m c 4 t = V m c (Pipeline.arrRef spec0 4) := by
  unfold iblk
  exact read_bias2 t _

/-! ## What a point writes back, the cover, the array -/

/-- The body's stored value at (p, q), over the arrays: row 2000·t + p of the one function. -/
theorem stored_apply (A : S100000x256.Idx → EReal) (W1 : S256x512.Idx → EReal) (b1 : S512.Idx → EReal)
    (W2 : S512x32.Idx → EReal) (b2 : S32.Idx → EReal) (q : Fin 32) (n : Fin 100000) :
    (∑ h : Fin 512, max ((∑ d : Fin 256, A (ix2 n d) * W1 (ix2 d h)) + b1 (ix1 h)) (Ideal.ofBits .f32 0x00000000#32)
        * W2 (ix2 h q)) + b2 (ix1 q) = rowsOut A W1 b1 W2 b2 (ix2 n q) := rfl

/-- What point t writes back is block t of the one function. -/
theorem flushed_eq (c : Dev nD) (t : Fin cfg0.N) :
    (dats m 0 c).flushed 5 t = ((cfg0.win 5).blk t).view.read (Elt Ideal) (regionOut m c) := by
  show (cfg0.win 5).cut (grid0.coords t) ((dats m 0 c).after 5 t) = _
  rw [after0_5]
  unfold out0_5
  rw [View.canon_unit_zero off2]
  simp only [View.ld_unit_zero (S := S2000x256) off2, View.ld_unit_zero (S := S256x512) off2,
    View.ld_unit_zero (S := S512) off1, View.ld_unit_zero (S := S512x32) off2, View.ld_unit_zero (S := S32) off1]
  funext j
  obtain ⟨p, q, rfl⟩ : ∃ (p : Fin 2000) (q : Fin 32), j = ix2 p q := ⟨j 0, j 1, eq_ix2 j⟩
  have hN : t.val < 50 := by
    have h := t.isLt
    have e : cfg0.N = 50 := N_0
    omega
  have hrow : 2000 * t.val + p.val < 100000 := by have := p.isLt; omega
  refine (pay_apply (iblk m c 0 t) (iblk m c 1 t) (iblk m c 2 t) (iblk m c 3 t) (iblk m c 4 t) p q).trans ?_
  rw [weights1_eq m c t, bias1_eq m c t, weights2_eq m c t, bias2_eq m c t]
  simp only [features_apply m c t p _ ⟨2000 * t.val + p.val, hrow⟩ rfl]
  rw [read_result t _ p q ⟨2000 * t.val + p.val, hrow⟩ rfl]
  exact stored_apply _ _ _ _ _ q _

/-- An index of the result array is in point t's block iff each coordinate is in the block's range on its axis. -/
theorem mem_blk (t : Fin cfg0.N) (i : S100000x32.Idx) :
    i ∈ ((cfg0.win 5).blk t).view.set ↔ ∀ a : Fin 2, win0_5.index t a * S2000x32.size a ≤ (i a).val ∧ (i a).val < win0_5.index t a * S2000x32.size a + S2000x32.size a := by
  show i ∈ ((View.whole main_v17).slice (win0_5.rect t)).set ↔ _
  rw [View.set_slice_whole, Rect.mem_set_unit]
  exact Iff.rfl

/-- Every row lies in the block of the point numbered by the row's quotient by 2000. -/
theorem covered (i : S100000x32.Idx) : ∃ t : Fin cfg0.N, (cfg0.win 5).flush t = true ∧ i ∈ ((cfg0.win 5).blk t).view.set := by
  have hi0 : (i 0).val < 100000 := (i 0).isLt
  have hi1 : (i 1).val < 32 := (i 1).isLt
  have hN : cfg0.N = 50 := N_0
  refine ⟨⟨(i 0).val / 2000, by rw [hN]; omega⟩, flush0_5 _, ?_⟩
  rw [mem_blk]
  obtain ⟨-, -, -, -, -, -, -, -, e0, e1⟩ := blockAt ⟨(i 0).val / 2000, by rw [hN]; omega⟩
  intro a
  match a with
  | ⟨0, _⟩ =>
    show win0_5.index _ (0 : Fin 2) * 2000 ≤ (i 0).val ∧ (i 0).val < win0_5.index _ (0 : Fin 2) * 2000 + 2000
    rw [e0]; show (i 0).val / 2000 * 2000 ≤ (i 0).val ∧ (i 0).val < (i 0).val / 2000 * 2000 + 2000; omega
  | ⟨1, _⟩ =>
    show win0_5.index _ (1 : Fin 2) * 32 ≤ (i 1).val ∧ (i 1).val < win0_5.index _ (1 : Fin 2) * 32 + 32
    rw [e1]; omega

/-- The result array after the region is the one function of the arrays the region finds. -/
theorem region_final (c : Dev nD) : (dats m 0 c).arrAt 5 cfg0.N = regionOut m c :=
  (dats m 0 c).arrAt_eq_of_cover 5 (regionOut m c) (fun t _ => flushed_eq m c t) (covered)

end Cert.KernelIdeal.Body

end
-- ==== Proof.Spec.lean ====
/-
  The two-layer perceptron that both programs apply to the gathered feature rows, as ONE function of the feature
  array and the weights, entry by entry over the extended reals.

  For a feature array X[1, 100000, 256], weights W1[256, 512], W2[512, 32] and biases b1[512], b2[32]:

    hidden n h  =  max (Σ_d X[0, n, d] · W1[d, h]  +  b1[h])  z
    out[0, n, j] =  Σ_h hidden n h · W2[h, j]  +  b2[j]

  where z is the value of the f32 zero word, which both programs write literally (so it is never evaluated here).
  Nothing is rearranged between the two programs: each row's two sums run over the same index sets in both, so no law
  of the extended reals beyond equality of the summands is needed, and no finiteness of the inputs.
-/
import Idealize.ShloMosaic.PureOps.Ideal
import Idealize.ShloMosaic.Lib.ValueIdx

noncomputable section

namespace Cert.Mlp

open Idealize.ShloMosaic Idealize.ShloMosaic.ValueIdx

/-- The rectified first layer at row `n`, hidden unit `h`. -/
def hidden (X : (⟨3, ![1, 100000, 256]⟩ : Shape).Idx → EReal) (W1 : (⟨2, ![256, 512]⟩ : Shape).Idx → EReal)
    (b1 : (⟨1, ![512]⟩ : Shape).Idx → EReal) (n : Fin 100000) (h : Fin 512) : EReal :=
  max ((∑ d : Fin 256, X (ix3 (0 : Fin 1) n d) * W1 (ix2 d h)) + b1 (ix1 h)) (Ideal.ofBits .f32 0x00000000#32)

/-- The second layer at row `n`, output feature `j`. -/
def outAt (X : (⟨3, ![1, 100000, 256]⟩ : Shape).Idx → EReal) (W1 : (⟨2, ![256, 512]⟩ : Shape).Idx → EReal)
    (b1 : (⟨1, ![512]⟩ : Shape).Idx → EReal) (W2 : (⟨2, ![512, 32]⟩ : Shape).Idx → EReal)
    (b2 : (⟨1, ![32]⟩ : Shape).Idx → EReal) (n : Fin 100000) (j : Fin 32) : EReal :=
  (∑ h : Fin 512, hidden X W1 b1 n h * W2 (ix2 h j)) + b2 (ix1 j)

/-- The whole result array [1, 100000, 32]. -/
def out (X : (⟨3, ![1, 100000, 256]⟩ : Shape).Idx → EReal) (W1 : (⟨2, ![256, 512]⟩ : Shape).Idx → EReal)
    (b1 : (⟨1, ![512]⟩ : Shape).Idx → EReal) (W2 : (⟨2, ![512, 32]⟩ : Shape).Idx → EReal)
    (b2 : (⟨1, ![32]⟩ : Shape).Idx → EReal) : (⟨3, ![1, 100000, 32]⟩ : Shape).Idx → EReal :=
  fun i => outAt X W1 b1 W2 b2 ⟨(i 1).val, (i 1).isLt⟩ ⟨(i 2).val, (i 2).isLt⟩

/-- The result array read at explicit coordinates. -/
theorem out_ix3 (X : (⟨3, ![1, 100000, 256]⟩ : Shape).Idx → EReal) (W1 : (⟨2, ![256, 512]⟩ : Shape).Idx → EReal)
    (b1 : (⟨1, ![512]⟩ : Shape).Idx → EReal) (W2 : (⟨2, ![512, 32]⟩ : Shape).Idx → EReal)
    (b2 : (⟨1, ![32]⟩ : Shape).Idx → EReal) (z : Fin 1) (n : Fin 100000) (j : Fin 32) :
    out X W1 b1 W2 b2 (ix3 z n j) = outAt X W1 b1 W2 b2 n j := rfl

end Cert.Mlp

end
-- ==== Proof.KernelHost.lean ====
/-
  The arrays the region finds, in terms of the launch memory. Before the region @main runs forty host operations: the
  same thirty-six that build the feature array [1, 100000, 256] in the reference (reshape, gather with fill, mask,
  transpose, reshape), and four more — the feature array and the two weight matrices changed to bf16, and the feature
  array viewed as a [100000, 256] matrix. At the ideal values a change of format is the identity, so the region finds

    • in window 0 the feature array with its leading unit axis dropped: row n, column d is features[0, n, d];
    • in windows 1 and 3 the two weight matrices as launched, in windows 2 and 4 the two bias vectors as launched.

  The thirty-six feature operations are never opened here: their fold over the launch memory stays one valuation.
-/
import proofs.«178317_j49435073577117_2_alg».proof.Proof.RegionArray
import proofs.«178317_j49435073577117_2_alg».proof.Proof.Spec
import Idealize.ShloMosaic.Lib.StableHlo.Run
import Idealize.ShloMosaic.Lib.ValueLayout

noncomputable section

open Idealize.ShloMosaic Idealize.ShloMosaic.TcCoe Idealize.SL.Sem Idealize.ShloMosaic.ValueIdx
open Idealize.ShloMosaic.StableHlo (after after_append)

namespace Cert.KernelIdeal.Host

open Cert.KernelIdeal Cert.KernelIdeal.Gen Cert.KernelIdeal.Body

variable {F : FTy → Type} [FloatOps F]

/-- The thirty-six operations that build the feature array `main_v12`, in order. -/
abbrev featureOps : List (HloOp τ sig (Elt F)) :=
  [ StableHlo.reshape main_arg0 main_v0 rfl shapeCasts_S1x8x64x64x64_S1x8x262144,
    StableHlo.nullary main_c (constantI S_ 32 0#32),
    StableHlo.unary main_c main_v1 (broadcastInDim S1x100000x32 ![] bcast_S_S1x100000x32 : (⟨S_, .i32⟩ : BufTy).Contents (Elt F) → (⟨S1x100000x32, .i32⟩ : BufTy).Contents (Elt F)),
    StableHlo.binary main_arg1 main_v1 main_v2 (cmpi .ne : (⟨S1x100000x32, .i32⟩ : BufTy).Contents (Elt F) → (⟨S1x100000x32, .i32⟩ : BufTy).Contents (Elt F) → (⟨S1x100000x32, .i1⟩ : BufTy).Contents (Elt F)),
    StableHlo.reshape main_arg1 main_v3 rfl shapeCasts_S1x100000x32_S1x1x3200000,
    StableHlo.unary main_v3 main_v4 (broadcastInDim S1x8x3200000 ![0, 1, 2] bcast_S1x1x3200000_S1x8x3200000_0_1_2 : (⟨S1x1x3200000, .i32⟩ : BufTy).Contents (Elt F) → (⟨S1x8x3200000, .i32⟩ : BufTy).Contents (Elt F)),
    StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1x8x3200000, .i32⟩) (broadcastInDim S1x8x3200000 ![] bcast_S_S1x8x3200000),
    StableHlo.TRef.binary (.of main_v4 : StableHlo.TRef sig ⟨S1x8x3200000, .i32⟩) (.of main_call0_v0 : StableHlo.TRef sig ⟨S1x8x3200000, .i32⟩) (.of main_call0_v1 : StableHlo.TRef sig ⟨S1x8x3200000, .i1⟩) (cmpi .slt),
    StableHlo.TRef.nullary (.of main_call0_c_0 : StableHlo.TRef sig ⟨S_, .i32⟩) (constantI S_ 32 262144#32),
    StableHlo.TRef.unary (.of main_call0_c_0 : StableHlo.TRef sig ⟨S_, .i32⟩) (.of main_call0_v2 : StableHlo.TRef sig ⟨S1x8x3200000, .i32⟩) (broadcastInDim S1x8x3200000 ![] bcast_S_S1x8x3200000),
    StableHlo.TRef.binary (.of main_v4 : StableHlo.TRef sig ⟨S1x8x3200000, .i32⟩) (.of main_call0_v2 : StableHlo.TRef sig ⟨S1x8x3200000, .i32⟩) (.of main_call0_v3 : StableHlo.TRef sig ⟨S1x8x3200000, .i32⟩) addi,
    StableHlo.TRef.ternary (.of main_call0_v1 : StableHlo.TRef sig ⟨S1x8x3200000, .i1⟩) (.of main_call0_v3 : StableHlo.TRef sig ⟨S1x8x3200000, .i32⟩) (.of main_v4 : StableHlo.TRef sig ⟨S1x8x3200000, .i32⟩) (.of main_call0_v4 : StableHlo.TRef sig ⟨S1x8x3200000, .i32⟩) select,
    StableHlo.TRef.reshape (.of main_call0_v4 : StableHlo.TRef sig ⟨S1x8x3200000, .i32⟩) (.of main_call0_v5 : StableHlo.TRef sig ⟨S8x3200000x1, .i32⟩) rfl shapeCasts_S1x8x3200000_S8x3200000x1,
    StableHlo.TRef.nullary (.of main_call0_c_1 : StableHlo.TRef sig ⟨S1, .i32⟩) (constantI S1 32 262143#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S8x3200000x1, .i32⟩) (broadcastInDim S8x3200000x1 ![] bcast_S_S8x3200000x1),
    StableHlo.TRef.binary (.of main_call0_v5 : StableHlo.TRef sig ⟨S8x3200000x1, .i32⟩) (.of main_call0_v6 : StableHlo.TRef sig ⟨S8x3200000x1, .i32⟩) (.of main_call0_v7 : StableHlo.TRef sig ⟨S8x3200000x1, .i1⟩) (cmpi .sge),
    StableHlo.TRef.unary (.of main_call0_c_1 : StableHlo.TRef sig ⟨S1, .i32⟩) (.of main_call0_v8 : StableHlo.TRef sig ⟨S1x1x1, .i32⟩) (broadcastInDim S1x1x1 ![2] bcast_S1_S1x1x1_2),
    StableHlo.TRef.unary (.of main_call0_v8 : StableHlo.TRef sig ⟨S1x1x1, .i32⟩) (.of main_call0_v9 : StableHlo.TRef sig ⟨S8x3200000x1, .i32⟩) (broadcastInDim S8x3200000x1 ![0, 1, 2] bcast_S1x1x1_S8x3200000x1_0_1_2),
    StableHlo.TRef.binary (.of main_call0_v5 : StableHlo.TRef sig ⟨S8x3200000x1, .i32⟩) (.of main_call0_v9 : StableHlo.TRef sig ⟨S8x3200000x1, .i32⟩) (.of main_call0_v10 : StableHlo.TRef sig ⟨S8x3200000x1, .i1⟩) (cmpi .sle),
    StableHlo.TRef.binary (.of main_call0_v7 : StableHlo.TRef sig ⟨S8x3200000x1, .i1⟩) (.of main_call0_v10 : StableHlo.TRef sig ⟨S8x3200000x1, .i1⟩) (.of main_call0_v11 : StableHlo.TRef sig ⟨S8x3200000x1, .i1⟩) andi,
    StableHlo.TRef.nullary (.of main_call0_c_3 : StableHlo.TRef sig ⟨S_, .i1⟩) (constantI S_ 1 1#1),
    StableHlo.TRef.binary (.of main_call0_v11 : StableHlo.TRef sig ⟨S8x3200000x1, .i1⟩) (.of main_call0_c_3 : StableHlo.TRef sig ⟨S_, .i1⟩) (.of main_call0_v12 : StableHlo.TRef sig ⟨S8x3200000, .i1⟩) (fun x v => Host.reduce IntOp.andi x v reducesTo_S8x3200000x1_S8x3200000_d2 h_S_),
    StableHlo.TRef.binary (.of main_v0 : StableHlo.TRef sig ⟨S1x8x262144, .f32⟩) (.of main_call0_v5 : StableHlo.TRef sig ⟨S8x3200000x1, .i32⟩) (.of main_call0_v13 : StableHlo.TRef sig ⟨S1x8x3200000, .f32⟩) (fun x i => Host.gather gather_S1x8x262144_S8x3200000x1_S1x8x3200000_0_2_1_0_2_2_111 x i),
    StableHlo.TRef.unary (.of main_call0_v12 : StableHlo.TRef sig ⟨S8x3200000, .i1⟩) (.of main_call0_v14 : StableHlo.TRef sig ⟨S1x8x3200000, .i1⟩) (broadcastInDim S1x8x3200000 ![1, 2] bcast_S8x3200000_S1x8x3200000_1_2),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S1x8x3200000, .f32⟩) (broadcastInDim S1x8x3200000 ![] bcast_S_S1x8x3200000),
    StableHlo.TRef.ternary (.of main_call0_v14 : StableHlo.TRef sig ⟨S1x8x3200000, .i1⟩) (.of main_call0_v13 : StableHlo.TRef sig ⟨S1x8x3200000, .f32⟩) (.of main_call0_v15 : StableHlo.TRef sig ⟨S1x8x3200000, .f32⟩) (.of main_v5 : StableHlo.TRef sig ⟨S1x8x3200000, .f32⟩) select,
    StableHlo.reshape main_v5 main_v6 rfl shapeCasts_S1x8x3200000_S1x8x100000x32,
    StableHlo.unary main_v2 main_v7 (broadcastInDim S1x1x100000x32 ![0, 2, 3] bcast_S1x100000x32_S1x1x100000x32_0_2_3 : (⟨S1x100000x32, .i1⟩ : BufTy).Contents (Elt F) → (⟨S1x1x100000x32, .i1⟩ : BufTy).Contents (Elt F)),
    StableHlo.unary main_v7 main_v8 (uitofp .f32 : (⟨S1x1x100000x32, .i1⟩ : BufTy).Contents (Elt F) → (⟨S1x1x100000x32, .f32⟩ : BufTy).Contents (Elt F)),
    StableHlo.unary main_v8 main_v9 (broadcastInDim S1x8x100000x32 ![0, 1, 2, 3] bcast_S1x1x100000x32_S1x8x100000x32_0_1_2_3 : (⟨S1x1x100000x32, .f32⟩ : BufTy).Contents (Elt F) → (⟨S1x8x100000x32, .f32⟩ : BufTy).Contents (Elt F)),
    StableHlo.binary main_v6 main_v9 main_v10 (mulf : (⟨S1x8x100000x32, .f32⟩ : BufTy).Contents (Elt F) → (⟨S1x8x100000x32, .f32⟩ : BufTy).Contents (Elt F) → (⟨S1x8x100000x32, .f32⟩ : BufTy).Contents (Elt F)),
    StableHlo.unary main_v10 main_v11 ((transpose S1x100000x8x32 [0, 2, 1, 3] · transposes_S1x8x100000x32_S1x100000x8x32_0_2_1_3) : (⟨S1x8x100000x32, .f32⟩ : BufTy).Contents (Elt F) → (⟨S1x100000x8x32, .f32⟩ : BufTy).Contents (Elt F)),
    StableHlo.reshape main_v11 main_v12 rfl shapeCasts_S1x100000x8x32_S1x100000x256 ]

/-- The four after them: the changes to bf16 and the view of the features as a matrix. -/
abbrev castOps : List (HloOp τ sig (Elt F)) :=
  [ StableHlo.unary main_v12 main_v13 ((truncf .bf16 · bitsLt_bf16_f32) : (⟨S1x100000x256, .f32⟩ : BufTy).Contents (Elt F) → (⟨S1x100000x256, .bf16⟩ : BufTy).Contents (Elt F)),
    StableHlo.reshape main_v13 main_v14 rfl shapeCasts_S1x100000x256_S100000x256,
    StableHlo.unary main_arg2 main_v15 ((truncf .bf16 · bitsLt_bf16_f32) : (⟨S256x512, .f32⟩ : BufTy).Contents (Elt F) → (⟨S256x512, .bf16⟩ : BufTy).Contents (Elt F)),
    StableHlo.unary main_arg4 main_v16 ((truncf .bf16 · bitsLt_bf16_f32) : (⟨S512x32, .f32⟩ : BufTy).Contents (Elt F) → (⟨S512x32, .bf16⟩ : BufTy).Contents (Elt F)) ]

theorem prefix_split :
    (List.flatten [hostOps0, hostOps0_1, hostOps0_2] : List (HloOp τ sig (Elt F))) = featureOps ++ castOps := rfl

variable (m : (ℓ : Loc nD τ sig) → Buf (Elt Ideal) ℓ)

/-- The buffers' contents after the feature operations. -/
abbrev feat (c : Dev nD) : Valuation τ sig (Elt Ideal) := after featureOps (fun b => m (c, b))

/-- What the region finds is the four last operations over that. -/
theorem V0_eq (c : Dev nD) : V0 m c = after castOps (feat m c) := by
  show after (List.flatten [hostOps0, hostOps0_1, hostOps0_2]) _ = _
  rw [prefix_split, after_append]

/-! ## The four last operations, over any contents -/

/-- The features' matrix view at (n, d) is the feature array at (0, n, d). -/
theorem cast_features (W : Valuation τ sig (Elt Ideal)) (n : Fin 100000) (d : Fin 256) :
    (after castOps W (Proc.devRef .tc main_v14) : S100000x256.Idx → EReal) (ix2 n d)
      = (W (Proc.devRef .tc main_v12) : S1x100000x256.Idx → EReal) (ix3 (0 : Fin 1) n d) := by
  after_results_simp
  exact shapeCast_1ab_ab_apply _ shapeCasts_S1x100000x256_S100000x256 n d

/-- The first weights after their change of format are the first weights. -/
theorem cast_weights1 (W : Valuation τ sig (Elt Ideal)) :
    (after castOps W (Proc.devRef .tc main_v15) : S256x512.Idx → EReal) = W (Proc.devRef .tc main_arg2) := by
  after_results_simp
  rfl

/-- The second weights likewise. -/
theorem cast_weights2 (W : Valuation τ sig (Elt Ideal)) :
    (after castOps W (Proc.devRef .tc main_v16) : S512x32.Idx → EReal) = W (Proc.devRef .tc main_arg4) := by
  after_results_simp
  rfl

/-! ## The feature operations leave the weights and biases as launched -/

theorem feat_arg2 (c : Dev nD) : feat m c (Proc.devRef .tc main_arg2) = m ((c.tc : Thread nD τ).loc main_arg2) := by
  after_results_simp <;> rfl

theorem feat_arg4 (c : Dev nD) : feat m c (Proc.devRef .tc main_arg4) = m ((c.tc : Thread nD τ).loc main_arg4) := by
  after_results_simp <;> rfl

/-! ## The region's five input arrays -/

theorem found_features (c : Dev nD) (n : Fin 100000) (d : Fin 256) :
    (V m c (Pipeline.arrRef spec0 0) : S100000x256.Idx → EReal) (ix2 n d)
      = (feat m c (Proc.devRef .tc main_v12) : S1x100000x256.Idx → EReal) (ix3 (0 : Fin 1) n d) := by
  show (V0 m c (Proc.devRef .tc main_v14) : S100000x256.Idx → EReal) (ix2 n d) = _
  rw [V0_eq]
  exact cast_features (feat m c) n d

theorem found_weights1 (c : Dev nD) :
    (V m c (Pipeline.arrRef spec0 1) : S256x512.Idx → EReal) = m ((c.tc : Thread nD τ).loc main_arg2) := by
  show (V0 m c (Proc.devRef .tc main_v15) : S256x512.Idx → EReal) = _
  rw [V0_eq]
  exact (cast_weights1 (feat m c)).trans (feat_arg2 m c)

theorem found_bias1 (c : Dev nD) :
    (V m c (Pipeline.arrRef spec0 2) : S512.Idx → EReal) = m ((c.tc : Thread nD τ).loc main_arg3) :=
  V_main_arg3 m c

theorem found_weights2 (c : Dev nD) :
    (V m c (Pipeline.arrRef spec0 3) : S512x32.Idx → EReal) = m ((c.tc : Thread nD τ).loc main_arg4) := by
  show (V0 m c (Proc.devRef .tc main_v16) : S512x32.Idx → EReal) = _
  rw [V0_eq]
  exact (cast_weights2 (feat m c)).trans (feat_arg4 m c)

theorem found_bias2 (c : Dev nD) :
    (V m c (Pipeline.arrRef spec0 4) : S32.Idx → EReal) = m ((c.tc : Thread nD τ).loc main_arg5) :=
  V_main_arg5 m c

/-- The result array after the region, row n and column j: the perceptron of the feature array and the launched weights. -/
theorem regionOut_apply (c : Dev nD) (n : Fin 100000) (j : Fin 32) :
    regionOut m c (ix2 n j)
      = Cert.Mlp.outAt (feat m c (Proc.devRef .tc main_v12)) (m ((c.tc : Thread nD τ).loc main_arg2))
          (m ((c.tc : Thread nD τ).loc main_arg3)) (m ((c.tc : Thread nD τ).loc main_arg4))
          (m ((c.tc : Thread nD τ).loc main_arg5)) n j := by
  show rowsOut _ _ _ _ _ (ix2 n j) = _
  rw [found_weights1 m c, found_bias1 m c, found_weights2 m c, found_bias2 m c]
  unfold rowsOut Cert.Mlp.outAt Cert.Mlp.hidden
  simp only [found_features m c]

end Cert.KernelIdeal.Host

end
-- ==== Proof.KernelRun.lean ====
/-
  The kernel program's run, read. After the region @main has one more host operation: the [100000, 32] array the region
  wrote gets a leading unit axis. The generated frame run states every pipeline array after the region and every other
  buffer after that last operation; read through it, the result buffer ends holding, at (z, n, j), row n and column j of
  the region's array — the perceptron (Spec: Cert.Mlp.out) of the feature array and the weights and biases as launched —
  and the six argument arrays end as they were launched.
-/
import proofs.«178317_j49435073577117_2_alg».proof.Proof.KernelHost
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.StableHlo
open Idealize.ShloMosaic.Pipeline (Dat)

namespace Cert.KernelIdeal.Host

open Cert.KernelIdeal Cert.KernelIdeal.Gen Cert.KernelIdeal.Body

variable (m : (ℓ : Loc nD τ sig) → Buf (Elt Ideal) ℓ) (ρ : Dev nD → PrngReg)

/-- The kernel program's result: the perceptron of the feature array and of the weights and biases as launched. -/
abbrev result (c : Dev nD) : S1x100000x32.Idx → EReal :=
  Cert.Mlp.out (feat m c (Proc.devRef .tc main_v12)) (m ((c.tc : Thread nD τ).loc main_arg2))
    (m ((c.tc : Thread nD τ).loc main_arg3)) (m ((c.tc : Thread nD τ).loc main_arg4))
    (m ((c.tc : Thread nD τ).loc main_arg5))

/-- What the region leaves in its result array, as the host tail finds it. -/
theorem region_array (c : Dev nD) :
    Pipeline.withArrays spec0 c (V0 m c) (fun w => (dats m 0 c).arrAt w cfg0.N) (Proc.devRef .tc (Pipeline.arrRef spec0 5))
      = regionOut m c :=
  (Pipeline.withArrays_arr spec0 launch0.win.arr_inj c _ _ 5).trans (region_final m c)

/-- The result buffer after the host tail. -/
theorem tail_result (c : Dev nD) :
    Pipeline.afterTail₀ cfgs (dats m) 0 (V0 m) [hostOps1] c main_v18 = result m c := by
  unfold Pipeline.afterTail₀
  show StableHlo.after hostOps1 _ (Proc.devRef .tc main_v18) = _
  after_results
  funext i
  obtain ⟨z, n, j, rfl⟩ : ∃ (z : Fin 1) (n : Fin 100000) (j : Fin 32), i = ix3 z n j := ⟨i 0, i 1, i 2, eq_ix3 i⟩
  refine (broadcastInDim_apply _ bcast_S100000x32_S1x100000x32_1_2 _ (ix3 z n j) (ix2 n j) (fun a => match a with
      | ⟨0, _⟩ => by show n.val = if (100000 : Nat) = 1 then 0 else n.val; rw [if_neg (by decide)]
      | ⟨1, _⟩ => by show j.val = if (32 : Nat) = 1 then 0 else j.val; rw [if_neg (by decide)])).trans ?_
  refine (congrFun (region_array m c) (ix2 n j)).trans ?_
  exact regionOut_apply m c n j

/-- Every weakly fair execution of the kernel program terminates with the result buffer at `result` and the arguments
    unchanged. -/
theorem run : θ_run defs (onTc (τ := τ) (main (F := Ideal))) ⟨m, fun _ => 0, ρ⟩ fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      ((h c).2 main_v18 (Pipeline.mem_restRefs_of main_v18 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c)))⟩)
    (run_main m ρ)

end Cert.KernelIdeal.Host

end
-- ==== Proof.RefRun.lean ====
/-
  The reference program's run. Its @main is a straight line of 47 host operations: 36 that build the feature array
  (reshape the grid, gather its rows at the neighbour indices with out-of-range indices filled, zero the rows whose
  index is 0, transpose and reshape to [1, 100000, 256]) and 11 that apply the two-layer perceptron to it (a
  contraction with the first weights, the bias, a maximum with zero, a contraction with the second weights, the bias).
  Every weakly fair execution ends with each buffer at the fold of the operations over the launch contents
  (`StableHlo.run_seq`); the fold over the whole line is the fold of the last 11 over the fold of the first 36.
-/
import proofs.«178317_j49435073577117_2_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 47 operations, in order (a called function's operations stand in its call's place). -/
abbrev ops : List (HloOp τ sig (Elt F)) :=
  [ reshape main_arg0 main_v0 rfl shapeCasts_S1x8x64x64x64_S1x8x262144,
    nullary main_c (constantI S_ 32 0#32),
    unary main_c main_v1 (broadcastInDim S1x100000x32 ![] bcast_S_S1x100000x32 : (⟨S_, .i32⟩ : BufTy).Contents (Elt F) → (⟨S1x100000x32, .i32⟩ : BufTy).Contents (Elt F)),
    binary main_arg1 main_v1 main_v2 (cmpi .ne : (⟨S1x100000x32, .i32⟩ : BufTy).Contents (Elt F) → (⟨S1x100000x32, .i32⟩ : BufTy).Contents (Elt F) → (⟨S1x100000x32, .i1⟩ : BufTy).Contents (Elt F)),
    reshape main_arg1 main_v3 rfl shapeCasts_S1x100000x32_S1x1x3200000,
    unary main_v3 main_v4 (broadcastInDim S1x8x3200000 ![0, 1, 2] bcast_S1x1x3200000_S1x8x3200000_0_1_2 : (⟨S1x1x3200000, .i32⟩ : BufTy).Contents (Elt F) → (⟨S1x8x3200000, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S1x8x3200000, .i32⟩) main_call0_v0) (broadcastInDim S1x8x3200000 ![] bcast_S_S1x8x3200000),
    TRef.binary (TRef.of (T := ⟨S1x8x3200000, .i32⟩) main_v4) (TRef.of (T := ⟨S1x8x3200000, .i32⟩) main_call0_v0) (TRef.of (T := ⟨S1x8x3200000, .i1⟩) main_call0_v1) (cmpi .slt),
    TRef.nullary (TRef.of (T := ⟨S_, .i32⟩) main_call0_c_0) (constantI S_ 32 262144#32),
    TRef.unary (TRef.of (T := ⟨S_, .i32⟩) main_call0_c_0) (TRef.of (T := ⟨S1x8x3200000, .i32⟩) main_call0_v2) (broadcastInDim S1x8x3200000 ![] bcast_S_S1x8x3200000),
    TRef.binary (TRef.of (T := ⟨S1x8x3200000, .i32⟩) main_v4) (TRef.of (T := ⟨S1x8x3200000, .i32⟩) main_call0_v2) (TRef.of (T := ⟨S1x8x3200000, .i32⟩) main_call0_v3) addi,
    TRef.ternary (TRef.of (T := ⟨S1x8x3200000, .i1⟩) main_call0_v1) (TRef.of (T := ⟨S1x8x3200000, .i32⟩) main_call0_v3) (TRef.of (T := ⟨S1x8x3200000, .i32⟩) main_v4) (TRef.of (T := ⟨S1x8x3200000, .i32⟩) main_call0_v4) select,
    TRef.reshape (TRef.of (T := ⟨S1x8x3200000, .i32⟩) main_call0_v4) (TRef.of (T := ⟨S8x3200000x1, .i32⟩) main_call0_v5) rfl shapeCasts_S1x8x3200000_S8x3200000x1,
    TRef.nullary (TRef.of (T := ⟨S1, .i32⟩) main_call0_c_1) (constantI S1 32 262143#32),
    TRef.nullary (TRef.of (T := ⟨S_, .i32⟩) main_call0_c_2) (constantI S_ 32 0#32),
    TRef.unary (TRef.of (T := ⟨S_, .i32⟩) main_call0_c_2) (TRef.of (T := ⟨S8x3200000x1, .i32⟩) main_call0_v6) (broadcastInDim S8x3200000x1 ![] bcast_S_S8x3200000x1),
    TRef.binary (TRef.of (T := ⟨S8x3200000x1, .i32⟩) main_call0_v5) (TRef.of (T := ⟨S8x3200000x1, .i32⟩) main_call0_v6) (TRef.of (T := ⟨S8x3200000x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S8x3200000x1, .i32⟩) main_call0_v9) (broadcastInDim S8x3200000x1 ![0, 1, 2] bcast_S1x1x1_S8x3200000x1_0_1_2),
    TRef.binary (TRef.of (T := ⟨S8x3200000x1, .i32⟩) main_call0_v5) (TRef.of (T := ⟨S8x3200000x1, .i32⟩) main_call0_v9) (TRef.of (T := ⟨S8x3200000x1, .i1⟩) main_call0_v10) (cmpi .sle),
    TRef.binary (TRef.of (T := ⟨S8x3200000x1, .i1⟩) main_call0_v7) (TRef.of (T := ⟨S8x3200000x1, .i1⟩) main_call0_v10) (TRef.of (T := ⟨S8x3200000x1, .i1⟩) main_call0_v11) andi,
    TRef.nullary (TRef.of (T := ⟨S_, .i1⟩) main_call0_c_3) (constantI S_ 1 1#1),
    TRef.binary (TRef.of (T := ⟨S8x3200000x1, .i1⟩) main_call0_v11) (TRef.of (T := ⟨S_, .i1⟩) main_call0_c_3) (TRef.of (T := ⟨S8x3200000, .i1⟩) main_call0_v12) (fun x v => Host.reduce IntOp.andi x v reducesTo_S8x3200000x1_S8x3200000_d2 h_S_),
    TRef.binary (TRef.of (T := ⟨S1x8x262144, .f32⟩) main_v0) (TRef.of (T := ⟨S8x3200000x1, .i32⟩) main_call0_v5) (TRef.of (T := ⟨S1x8x3200000, .f32⟩) main_call0_v13) (fun x i => Host.gather gather_S1x8x262144_S8x3200000x1_S1x8x3200000_0_2_1_0_2_2_111 x i),
    TRef.unary (TRef.of (T := ⟨S8x3200000, .i1⟩) main_call0_v12) (TRef.of (T := ⟨S1x8x3200000, .i1⟩) main_call0_v14) (broadcastInDim S1x8x3200000 ![1, 2] bcast_S8x3200000_S1x8x3200000_1_2),
    TRef.nullary (TRef.of (T := ⟨S_, .f32⟩) main_call0_cst) (constant S_ .f32 0x7FC00000#32),
    TRef.unary (TRef.of (T := ⟨S_, .f32⟩) main_call0_cst) (TRef.of (T := ⟨S1x8x3200000, .f32⟩) main_call0_v15) (broadcastInDim S1x8x3200000 ![] bcast_S_S1x8x3200000),
    TRef.ternary (TRef.of (T := ⟨S1x8x3200000, .i1⟩) main_call0_v14) (TRef.of (T := ⟨S1x8x3200000, .f32⟩) main_call0_v13) (TRef.of (T := ⟨S1x8x3200000, .f32⟩) main_call0_v15) (TRef.of (T := ⟨S1x8x3200000, .f32⟩) main_v5) select,
    reshape main_v5 main_v6 rfl shapeCasts_S1x8x3200000_S1x8x100000x32,
    unary main_v2 main_v7 (broadcastInDim S1x1x100000x32 ![0, 2, 3] bcast_S1x100000x32_S1x1x100000x32_0_2_3 : (⟨S1x100000x32, .i1⟩ : BufTy).Contents (Elt F) → (⟨S1x1x100000x32, .i1⟩ : BufTy).Contents (Elt F)),
    unary main_v7 main_v8 (uitofp .f32 : (⟨S1x1x100000x32, .i1⟩ : BufTy).Contents (Elt F) → (⟨S1x1x100000x32, .f32⟩ : BufTy).Contents (Elt F)),
    unary main_v8 main_v9 (broadcastInDim S1x8x100000x32 ![0, 1, 2, 3] bcast_S1x1x100000x32_S1x8x100000x32_0_1_2_3 : (⟨S1x1x100000x32, .f32⟩ : BufTy).Contents (Elt F) → (⟨S1x8x100000x32, .f32⟩ : BufTy).Contents (Elt F)),
    binary main_v6 main_v9 main_v10 (mulf : (⟨S1x8x100000x32, .f32⟩ : BufTy).Contents (Elt F) → (⟨S1x8x100000x32, .f32⟩ : BufTy).Contents (Elt F) → (⟨S1x8x100000x32, .f32⟩ : BufTy).Contents (Elt F)),
    unary main_v10 main_v11 ((transpose S1x100000x8x32 [0, 2, 1, 3] · transposes_S1x8x100000x32_S1x100000x8x32_0_2_1_3) : (⟨S1x8x100000x32, .f32⟩ : BufTy).Contents (Elt F) → (⟨S1x100000x8x32, .f32⟩ : BufTy).Contents (Elt F)),
    reshape main_v11 main_v12 rfl shapeCasts_S1x100000x8x32_S1x100000x256,
    binary main_v12 main_arg2 main_v13 ((fun l r => Host.dotGeneral dot_S1x100000x256_S256x512_S1x100000x512_2_0_01_1_n_n none l r) : (⟨S1x100000x256, .f32⟩ : BufTy).Contents (Elt F) → (⟨S256x512, .f32⟩ : BufTy).Contents (Elt F) → (⟨S1x100000x512, .f32⟩ : BufTy).Contents (Elt F)),
    unary main_arg3 main_v14 (broadcastInDim S1x1x512 ![2] bcast_S512_S1x1x512_2 : (⟨S512, .f32⟩ : BufTy).Contents (Elt F) → (⟨S1x1x512, .f32⟩ : BufTy).Contents (Elt F)),
    unary main_v14 main_v15 (broadcastInDim S1x100000x512 ![0, 1, 2] bcast_S1x1x512_S1x100000x512_0_1_2 : (⟨S1x1x512, .f32⟩ : BufTy).Contents (Elt F) → (⟨S1x100000x512, .f32⟩ : BufTy).Contents (Elt F)),
    binary main_v13 main_v15 main_v16 (addf : (⟨S1x100000x512, .f32⟩ : BufTy).Contents (Elt F) → (⟨S1x100000x512, .f32⟩ : BufTy).Contents (Elt F) → (⟨S1x100000x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1x100000x512, .f32⟩) main_call1_v0) (broadcastInDim S1x100000x512 ![] bcast_S_S1x100000x512),
    TRef.binary (TRef.of (T := ⟨S1x100000x512, .f32⟩) main_v16) (TRef.of (T := ⟨S1x100000x512, .f32⟩) main_call1_v0) (TRef.of (T := ⟨S1x100000x512, .f32⟩) main_v17) maximumf,
    binary main_v17 main_arg4 main_v18 ((fun l r => Host.dotGeneral dot_S1x100000x512_S512x32_S1x100000x32_2_0_01_1_n_n none l r) : (⟨S1x100000x512, .f32⟩ : BufTy).Contents (Elt F) → (⟨S512x32, .f32⟩ : BufTy).Contents (Elt F) → (⟨S1x100000x32, .f32⟩ : BufTy).Contents (Elt F)),
    unary main_arg5 main_v19 (broadcastInDim S1x1x32 ![2] bcast_S32_S1x1x32_2 : (⟨S32, .f32⟩ : BufTy).Contents (Elt F) → (⟨S1x1x32, .f32⟩ : BufTy).Contents (Elt F)),
    unary main_v19 main_v20 (broadcastInDim S1x100000x32 ![0, 1, 2] bcast_S1x1x32_S1x100000x32_0_1_2 : (⟨S1x1x32, .f32⟩ : BufTy).Contents (Elt F) → (⟨S1x100000x32, .f32⟩ : BufTy).Contents (Elt F)),
    binary main_v18 main_v20 main_v21 (addf : (⟨S1x100000x32, .f32⟩ : BufTy).Contents (Elt F) → (⟨S1x100000x32, .f32⟩ : BufTy).Contents (Elt F) → (⟨S1x100000x32, .f32⟩ : BufTy).Contents (Elt F)) ]

/-- The first 36: the feature array `main_v12` from the grid and the neighbour indices. -/
abbrev featureOps : List (HloOp τ sig (Elt F)) :=
  [ reshape main_arg0 main_v0 rfl shapeCasts_S1x8x64x64x64_S1x8x262144,
    nullary main_c (constantI S_ 32 0#32),
    unary main_c main_v1 (broadcastInDim S1x100000x32 ![] bcast_S_S1x100000x32 : (⟨S_, .i32⟩ : BufTy).Contents (Elt F) → (⟨S1x100000x32, .i32⟩ : BufTy).Contents (Elt F)),
    binary main_arg1 main_v1 main_v2 (cmpi .ne : (⟨S1x100000x32, .i32⟩ : BufTy).Contents (Elt F) → (⟨S1x100000x32, .i32⟩ : BufTy).Contents (Elt F) → (⟨S1x100000x32, .i1⟩ : BufTy).Contents (Elt F)),
    reshape main_arg1 main_v3 rfl shapeCasts_S1x100000x32_S1x1x3200000,
    unary main_v3 main_v4 (broadcastInDim S1x8x3200000 ![0, 1, 2] bcast_S1x1x3200000_S1x8x3200000_0_1_2 : (⟨S1x1x3200000, .i32⟩ : BufTy).Contents (Elt F) → (⟨S1x8x3200000, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S1x8x3200000, .i32⟩) main_call0_v0) (broadcastInDim S1x8x3200000 ![] bcast_S_S1x8x3200000),
    TRef.binary (TRef.of (T := ⟨S1x8x3200000, .i32⟩) main_v4) (TRef.of (T := ⟨S1x8x3200000, .i32⟩) main_call0_v0) (TRef.of (T := ⟨S1x8x3200000, .i1⟩) main_call0_v1) (cmpi .slt),
    TRef.nullary (TRef.of (T := ⟨S_, .i32⟩) main_call0_c_0) (constantI S_ 32 262144#32),
    TRef.unary (TRef.of (T := ⟨S_, .i32⟩) main_call0_c_0) (TRef.of (T := ⟨S1x8x3200000, .i32⟩) main_call0_v2) (broadcastInDim S1x8x3200000 ![] bcast_S_S1x8x3200000),
    TRef.binary (TRef.of (T := ⟨S1x8x3200000, .i32⟩) main_v4) (TRef.of (T := ⟨S1x8x3200000, .i32⟩) main_call0_v2) (TRef.of (T := ⟨S1x8x3200000, .i32⟩) main_call0_v3) addi,
    TRef.ternary (TRef.of (T := ⟨S1x8x3200000, .i1⟩) main_call0_v1) (TRef.of (T := ⟨S1x8x3200000, .i32⟩) main_call0_v3) (TRef.of (T := ⟨S1x8x3200000, .i32⟩) main_v4) (TRef.of (T := ⟨S1x8x3200000, .i32⟩) main_call0_v4) select,
    TRef.reshape (TRef.of (T := ⟨S1x8x3200000, .i32⟩) main_call0_v4) (TRef.of (T := ⟨S8x3200000x1, .i32⟩) main_call0_v5) rfl shapeCasts_S1x8x3200000_S8x3200000x1,
    TRef.nullary (TRef.of (T := ⟨S1, .i32⟩) main_call0_c_1) (constantI S1 32 262143#32),
    TRef.nullary (TRef.of (T := ⟨S_, .i32⟩) main_call0_c_2) (constantI S_ 32 0#32),
    TRef.unary (TRef.of (T := ⟨S_, .i32⟩) main_call0_c_2) (TRef.of (T := ⟨S8x3200000x1, .i32⟩) main_call0_v6) (broadcastInDim S8x3200000x1 ![] bcast_S_S8x3200000x1),
    TRef.binary (TRef.of (T := ⟨S8x3200000x1, .i32⟩) main_call0_v5) (TRef.of (T := ⟨S8x3200000x1, .i32⟩) main_call0_v6) (TRef.of (T := ⟨S8x3200000x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S8x3200000x1, .i32⟩) main_call0_v9) (broadcastInDim S8x3200000x1 ![0, 1, 2] bcast_S1x1x1_S8x3200000x1_0_1_2),
    TRef.binary (TRef.of (T := ⟨S8x3200000x1, .i32⟩) main_call0_v5) (TRef.of (T := ⟨S8x3200000x1, .i32⟩) main_call0_v9) (TRef.of (T := ⟨S8x3200000x1, .i1⟩) main_call0_v10) (cmpi .sle),
    TRef.binary (TRef.of (T := ⟨S8x3200000x1, .i1⟩) main_call0_v7) (TRef.of (T := ⟨S8x3200000x1, .i1⟩) main_call0_v10) (TRef.of (T := ⟨S8x3200000x1, .i1⟩) main_call0_v11) andi,
    TRef.nullary (TRef.of (T := ⟨S_, .i1⟩) main_call0_c_3) (constantI S_ 1 1#1),
    TRef.binary (TRef.of (T := ⟨S8x3200000x1, .i1⟩) main_call0_v11) (TRef.of (T := ⟨S_, .i1⟩) main_call0_c_3) (TRef.of (T := ⟨S8x3200000, .i1⟩) main_call0_v12) (fun x v => Host.reduce IntOp.andi x v reducesTo_S8x3200000x1_S8x3200000_d2 h_S_),
    TRef.binary (TRef.of (T := ⟨S1x8x262144, .f32⟩) main_v0) (TRef.of (T := ⟨S8x3200000x1, .i32⟩) main_call0_v5) (TRef.of (T := ⟨S1x8x3200000, .f32⟩) main_call0_v13) (fun x i => Host.gather gather_S1x8x262144_S8x3200000x1_S1x8x3200000_0_2_1_0_2_2_111 x i),
    TRef.unary (TRef.of (T := ⟨S8x3200000, .i1⟩) main_call0_v12) (TRef.of (T := ⟨S1x8x3200000, .i1⟩) main_call0_v14) (broadcastInDim S1x8x3200000 ![1, 2] bcast_S8x3200000_S1x8x3200000_1_2),
    TRef.nullary (TRef.of (T := ⟨S_, .f32⟩) main_call0_cst) (constant S_ .f32 0x7FC00000#32),
    TRef.unary (TRef.of (T := ⟨S_, .f32⟩) main_call0_cst) (TRef.of (T := ⟨S1x8x3200000, .f32⟩) main_call0_v15) (broadcastInDim S1x8x3200000 ![] bcast_S_S1x8x3200000),
    TRef.ternary (TRef.of (T := ⟨S1x8x3200000, .i1⟩) main_call0_v14) (TRef.of (T := ⟨S1x8x3200000, .f32⟩) main_call0_v13) (TRef.of (T := ⟨S1x8x3200000, .f32⟩) main_call0_v15) (TRef.of (T := ⟨S1x8x3200000, .f32⟩) main_v5) select,
    reshape main_v5 main_v6 rfl shapeCasts_S1x8x3200000_S1x8x100000x32,
    unary main_v2 main_v7 (broadcastInDim S1x1x100000x32 ![0, 2, 3] bcast_S1x100000x32_S1x1x100000x32_0_2_3 : (⟨S1x100000x32, .i1⟩ : BufTy).Contents (Elt F) → (⟨S1x1x100000x32, .i1⟩ : BufTy).Contents (Elt F)),
    unary main_v7 main_v8 (uitofp .f32 : (⟨S1x1x100000x32, .i1⟩ : BufTy).Contents (Elt F) → (⟨S1x1x100000x32, .f32⟩ : BufTy).Contents (Elt F)),
    unary main_v8 main_v9 (broadcastInDim S1x8x100000x32 ![0, 1, 2, 3] bcast_S1x1x100000x32_S1x8x100000x32_0_1_2_3 : (⟨S1x1x100000x32, .f32⟩ : BufTy).Contents (Elt F) → (⟨S1x8x100000x32, .f32⟩ : BufTy).Contents (Elt F)),
    binary main_v6 main_v9 main_v10 (mulf : (⟨S1x8x100000x32, .f32⟩ : BufTy).Contents (Elt F) → (⟨S1x8x100000x32, .f32⟩ : BufTy).Contents (Elt F) → (⟨S1x8x100000x32, .f32⟩ : BufTy).Contents (Elt F)),
    unary main_v10 main_v11 ((transpose S1x100000x8x32 [0, 2, 1, 3] · transposes_S1x8x100000x32_S1x100000x8x32_0_2_1_3) : (⟨S1x8x100000x32, .f32⟩ : BufTy).Contents (Elt F) → (⟨S1x100000x8x32, .f32⟩ : BufTy).Contents (Elt F)),
    reshape main_v11 main_v12 rfl shapeCasts_S1x100000x8x32_S1x100000x256 ]

/-- The last 11: the perceptron on the feature array. -/
abbrev perceptronOps : List (HloOp τ sig (Elt F)) :=
  [ binary main_v12 main_arg2 main_v13 ((fun l r => Host.dotGeneral dot_S1x100000x256_S256x512_S1x100000x512_2_0_01_1_n_n none l r) : (⟨S1x100000x256, .f32⟩ : BufTy).Contents (Elt F) → (⟨S256x512, .f32⟩ : BufTy).Contents (Elt F) → (⟨S1x100000x512, .f32⟩ : BufTy).Contents (Elt F)),
    unary main_arg3 main_v14 (broadcastInDim S1x1x512 ![2] bcast_S512_S1x1x512_2 : (⟨S512, .f32⟩ : BufTy).Contents (Elt F) → (⟨S1x1x512, .f32⟩ : BufTy).Contents (Elt F)),
    unary main_v14 main_v15 (broadcastInDim S1x100000x512 ![0, 1, 2] bcast_S1x1x512_S1x100000x512_0_1_2 : (⟨S1x1x512, .f32⟩ : BufTy).Contents (Elt F) → (⟨S1x100000x512, .f32⟩ : BufTy).Contents (Elt F)),
    binary main_v13 main_v15 main_v16 (addf : (⟨S1x100000x512, .f32⟩ : BufTy).Contents (Elt F) → (⟨S1x100000x512, .f32⟩ : BufTy).Contents (Elt F) → (⟨S1x100000x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1x100000x512, .f32⟩) main_call1_v0) (broadcastInDim S1x100000x512 ![] bcast_S_S1x100000x512),
    TRef.binary (TRef.of (T := ⟨S1x100000x512, .f32⟩) main_v16) (TRef.of (T := ⟨S1x100000x512, .f32⟩) main_call1_v0) (TRef.of (T := ⟨S1x100000x512, .f32⟩) main_v17) maximumf,
    binary main_v17 main_arg4 main_v18 ((fun l r => Host.dotGeneral dot_S1x100000x512_S512x32_S1x100000x32_2_0_01_1_n_n none l r) : (⟨S1x100000x512, .f32⟩ : BufTy).Contents (Elt F) → (⟨S512x32, .f32⟩ : BufTy).Contents (Elt F) → (⟨S1x100000x32, .f32⟩ : BufTy).Contents (Elt F)),
    unary main_arg5 main_v19 (broadcastInDim S1x1x32 ![2] bcast_S32_S1x1x32_2 : (⟨S32, .f32⟩ : BufTy).Contents (Elt F) → (⟨S1x1x32, .f32⟩ : BufTy).Contents (Elt F)),
    unary main_v19 main_v20 (broadcastInDim S1x100000x32 ![0, 1, 2] bcast_S1x1x32_S1x100000x32_0_1_2 : (⟨S1x1x32, .f32⟩ : BufTy).Contents (Elt F) → (⟨S1x100000x32, .f32⟩ : BufTy).Contents (Elt F)),
    binary main_v18 main_v20 main_v21 (addf : (⟨S1x100000x32, .f32⟩ : BufTy).Contents (Elt F) → (⟨S1x100000x32, .f32⟩ : BufTy).Contents (Elt F) → (⟨S1x100000x32, .f32⟩ : BufTy).Contents (Elt F)) ]

theorem ops_split : (ops : List (HloOp τ sig (Elt F))) = featureOps ++ perceptronOps := rfl

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., nullary_bufs_sub .., unary_bufs_sub .., binary_bufs_sub .., reshape_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., unary_bufs_sub .., unary_bufs_sub .., binary_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- The fold over the whole line is the perceptron's fold over the feature operations' fold. -/
theorem after_ops (V : Valuation τ sig (Elt F)) :
    after (ops : List (HloOp τ sig (Elt F))) V = after perceptronOps (after featureOps V) := by
  rw [ops_split, after_append]

set_option maxRecDepth 8192 in
set_option maxHeartbeats 2000000 in
/-- Every weakly fair execution of @main terminates with the result at the operations' fold over the launch contents
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21) = after ops (launchContents m c) (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨h c main_v21,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Hand

end
-- ==== Proof.LibDotRows.lean ====
/-
  The host's `dot_general` of a rank-3 array with a matrix, contracting the array's LAST axis with the matrix's FIRST and
  keeping the array's two leading axes (what `einsum('bnd,dh->bnh')` lowers to: no batch axis), read at an entry of the
  result at the ideal values: the sum over the contracted coordinate of the products of the operands' entries,

      out[z, n, j] = Σ_c X[z, n, c] · W[c, j],

  for any extents and any two float formats of the operands.
-/
import Idealize.ShloMosaic.PureOps.Ideal.Laws
import Idealize.ShloMosaic.Lib.ValueIdx

namespace LibDotRows

open Idealize.ShloMosaic Idealize.ShloMosaic.ValueIdx

variable {u a k b : Nat} {φ₁ φ₂ : FTy}

/-- Rows of a stack of matrices against the columns of one matrix. -/
theorem dotGeneral_rows_apply
    (w : DotDims.WF ⟨3, ![u, a, k]⟩ ⟨2, ![k, b]⟩ ⟨3, ![u, a, b]⟩ [2] [0] [0, 1] [1] [] [])
    (prec : Option ContractPrecision) (X : FVec Ideal ⟨3, ![u, a, k]⟩ φ₁) (W : FVec Ideal ⟨2, ![k, b]⟩ φ₂)
    (z : Fin u) (n : Fin a) (j : Fin b) :
    Host.dotGeneral (⟨[2], [0], [0, 1], [1], [], [], w⟩ : DotDims _ _ _) prec X W (ix3 z n j)
      = ∑ c : Fin k, X (ix3 z n c) * W (ix2 c j) := by
  simp only [Host.dotGeneral]
  rw [Ideal.dotGeneral_apply,
    ← Equiv.sum_comp (contrEquiv1 (⟨[2], [0], [0, 1], [1], [], [], w⟩ : DotDims _ _ _) k rfl rfl).symm]
  refine Finset.sum_congr rfl fun c _ => ?_
  have c2 := contrEquiv1_symm_val
    (⟨[2], [0], [0, 1], [1], [], [], w⟩ : DotDims ⟨3, ![u, a, k]⟩ ⟨2, ![k, b]⟩ ⟨3, ![u, a, b]⟩) k rfl rfl c
  have l3 : (⟨[2], [0], [0, 1], [1], [], [], w⟩ : DotDims ⟨3, ![u, a, k]⟩ ⟨2, ![k, b]⟩ ⟨3, ![u, a, b]⟩).lhsIdx (ix3 z n j)
      ((contrEquiv1 _ k rfl rfl).symm c) = ix3 z n c := by
    funext ax; apply Fin.ext
    match ax with
    | ⟨0, _⟩ =>
      simp [DotDims.lhsIdx]; rfl
    | ⟨1, _⟩ =>
      simp [DotDims.lhsIdx]; rfl
    | ⟨2, _⟩ =>
      exact ((⟨[2], [0], [0, 1], [1], [], [], w⟩ : DotDims ⟨3, ![u, a, k]⟩ ⟨2, ![k, b]⟩ ⟨3, ![u, a, b]⟩).lhsIdx_val_of_single
        rfl _ _).trans c2
  have r2 : (⟨[2], [0], [0, 1], [1], [], [], w⟩ : DotDims ⟨3, ![u, a, k]⟩ ⟨2, ![k, b]⟩ ⟨3, ![u, a, b]⟩).rhsIdx (ix3 z n j)
      ((contrEquiv1 _ k rfl rfl).symm c) = ix2 c j := by
    funext ax; apply Fin.ext
    match ax with
    | ⟨0, _⟩ =>
      exact ((⟨[2], [0], [0, 1], [1], [], [], w⟩ : DotDims ⟨3, ![u, a, k]⟩ ⟨2, ![k, b]⟩ ⟨3, ![u, a, b]⟩).rhsIdx_val_of_single
        rfl _ _).trans c2
    | ⟨1, _⟩ =>
      simp [DotDims.rhsIdx]; rfl
  rw [l3, r2]

end LibDotRows
-- ==== Proof.RefValue.lean ====
/-
  What the reference's last eleven operations compute, whatever the first thirty-six left. Over ANY contents W of the
  buffers, the fold of the perceptron's operations leaves in the result buffer

      out (W features) (W W1) (W b1) (W W2) (W b2)          (Spec: Cert.Mlp.out),

  read entry by entry: each contraction with a weight matrix is the plain sum over the contracted coordinate, a bias
  [k] viewed as [1, 1, k] and spread over [1, 100000, k] reads at (z, n, h) the bias at h, the zero the maximum is taken
  with is the zero word spread over the array, and the outlined `relu`'s typed buffers carry their values unchanged.
-/
import proofs.«178317_j49435073577117_2_alg».proof.Proof.RefRun
import proofs.«178317_j49435073577117_2_alg».proof.Proof.Spec
import proofs.«178317_j49435073577117_2_alg».proof.Proof.LibDotRows
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-- The first bias, viewed as [1, 1, 512] and spread over the rows, reads at (z, n, h) the bias at h. -/
theorem bias1_apply (b : (⟨S512, .f32⟩ : BufTy).Contents (Elt Ideal)) (z : Fin 1) (n : Fin 100000) (h : Fin 512) :
    broadcastInDim S1x100000x512 ![0, 1, 2] bcast_S1x1x512_S1x100000x512_0_1_2
        (broadcastInDim S1x1x512 ![2] bcast_S512_S1x1x512_2 b) (ix3 z n h) = b (ix1 h) := by
  refine (broadcastInDim_apply _ bcast_S1x1x512_S1x100000x512_0_1_2 _ (ix3 z n h) (ix3 (0 : Fin 1) (0 : Fin 1) h)
    (fun a => match a with
      | ⟨0, _⟩ => by show 0 = if (1 : Nat) = 1 then 0 else z.val; rw [if_pos rfl]
      | ⟨1, _⟩ => by show 0 = if (1 : Nat) = 1 then 0 else n.val; rw [if_pos rfl]
      | ⟨2, _⟩ => by show h.val = if (512 : Nat) = 1 then 0 else h.val; rw [if_neg (by decide)])).trans ?_
  exact broadcastInDim_apply _ bcast_S512_S1x1x512_2 b (ix3 (0 : Fin 1) (0 : Fin 1) h) (ix1 h)
    (fun a => match a with
      | ⟨0, _⟩ => by show h.val = if (512 : Nat) = 1 then 0 else h.val; rw [if_neg (by decide)])

/-- The second bias likewise, at (z, n, j). -/
theorem bias2_apply (b : (⟨S32, .f32⟩ : BufTy).Contents (Elt Ideal)) (z : Fin 1) (n : Fin 100000) (j : Fin 32) :
    broadcastInDim S1x100000x32 ![0, 1, 2] bcast_S1x1x32_S1x100000x32_0_1_2
        (broadcastInDim S1x1x32 ![2] bcast_S32_S1x1x32_2 b) (ix3 z n j) = b (ix1 j) := by
  refine (broadcastInDim_apply _ bcast_S1x1x32_S1x100000x32_0_1_2 _ (ix3 z n j) (ix3 (0 : Fin 1) (0 : Fin 1) j)
    (fun a => match a with
      | ⟨0, _⟩ => by show 0 = if (1 : Nat) = 1 then 0 else z.val; rw [if_pos rfl]
      | ⟨1, _⟩ => by show 0 = if (1 : Nat) = 1 then 0 else n.val; rw [if_pos rfl]
      | ⟨2, _⟩ => by show j.val = if (32 : Nat) = 1 then 0 else j.val; rw [if_neg (by decide)])).trans ?_
  exact broadcastInDim_apply _ bcast_S32_S1x1x32_2 b (ix3 (0 : Fin 1) (0 : Fin 1) j) (ix1 j)
    (fun a => match a with
      | ⟨0, _⟩ => by show j.val = if (32 : Nat) = 1 then 0 else j.val; rw [if_neg (by decide)])

/-- The zero word spread over [1, 100000, 512] reads its value everywhere. -/
theorem zeroSplat_apply (i : S1x100000x512.Idx) :
    broadcastInDim S1x100000x512 ![] bcast_S_S1x100000x512 (constant (F := Ideal) S_ .f32 0x00000000#32) i
      = Ideal.ofBits .f32 0x00000000#32 :=
  broadcastInDim_apply _ bcast_S_S1x100000x512 _ i ix0 (fun a => a.elim0)

/-- The rectified first layer of the reference at (z, n, h). -/
theorem hidden_apply (X : FVec Ideal S1x100000x256 .f32) (W1 : FVec Ideal S256x512 .f32)
    (b1 : FVec Ideal S512 .f32) (z : Fin 1) (n : Fin 100000) (h : Fin 512) :
    (maximumf
        (addf (Host.dotGeneral (φ₁ := .f32) (φ₂ := .f32) dot_S1x100000x256_S256x512_S1x100000x512_2_0_01_1_n_n none X W1)
          (broadcastInDim S1x100000x512 ![0, 1, 2] bcast_S1x1x512_S1x100000x512_0_1_2
            (broadcastInDim S1x1x512 ![2] bcast_S512_S1x1x512_2 b1)))
        (broadcastInDim S1x100000x512 ![] bcast_S_S1x100000x512 (constant (F := Ideal) S_ .f32 0x00000000#32))
          : FVec Ideal S1x100000x512 .f32) (ix3 z n h)
      = Cert.Mlp.hidden X W1 b1 n h := by
  obtain rfl : z = 0 := Subsingleton.elim _ _
  show max (Host.dotGeneral (φ₁ := .f32) (φ₂ := .f32) dot_S1x100000x256_S256x512_S1x100000x512_2_0_01_1_n_n none X W1 (ix3 (0 : Fin 1) n h)
      + broadcastInDim S1x100000x512 ![0, 1, 2] bcast_S1x1x512_S1x100000x512_0_1_2
          (broadcastInDim S1x1x512 ![2] bcast_S512_S1x1x512_2 b1) (ix3 (0 : Fin 1) n h))
      (broadcastInDim S1x100000x512 ![] bcast_S_S1x100000x512 (constant (F := Ideal) S_ .f32 0x00000000#32) (ix3 (0 : Fin 1) n h)) = _
  rw [bias1_apply, zeroSplat_apply]
  unfold Cert.Mlp.hidden
  refine congrArg (fun s => max (s + b1 (ix1 h)) (Ideal.ofBits .f32 0x00000000#32)) ?_
  exact LibDotRows.dotGeneral_rows_apply (φ₁ := .f32) (φ₂ := .f32) _ none X W1 0 n h

/-- The reference's result array as a term of the feature array and the weights is the specification. -/
theorem perceptron_eq (X : FVec Ideal S1x100000x256 .f32) (W1 : FVec Ideal S256x512 .f32)
    (b1 : FVec Ideal S512 .f32) (W2 : FVec Ideal S512x32 .f32)
    (b2 : FVec Ideal S32 .f32) :
    (addf
        (Host.dotGeneral (φ₁ := .f32) (φ₂ := .f32) dot_S1x100000x512_S512x32_S1x100000x32_2_0_01_1_n_n none
          (maximumf
            (addf (Host.dotGeneral (φ₁ := .f32) (φ₂ := .f32) dot_S1x100000x256_S256x512_S1x100000x512_2_0_01_1_n_n none X W1)
              (broadcastInDim S1x100000x512 ![0, 1, 2] bcast_S1x1x512_S1x100000x512_0_1_2
                (broadcastInDim S1x1x512 ![2] bcast_S512_S1x1x512_2 b1)))
            (broadcastInDim S1x100000x512 ![] bcast_S_S1x100000x512 (constant (F := Ideal) S_ .f32 0x00000000#32)))
          W2)
        (broadcastInDim S1x100000x32 ![0, 1, 2] bcast_S1x1x32_S1x100000x32_0_1_2
          (broadcastInDim S1x1x32 ![2] bcast_S32_S1x1x32_2 b2))
        : FVec Ideal S1x100000x32 .f32)
      = Cert.Mlp.out X W1 b1 W2 b2 := by
  funext i
  obtain ⟨z, n, j, rfl⟩ : ∃ (z : Fin 1) (n : Fin 100000) (j : Fin 32), i = ix3 z n j := ⟨i 0, i 1, i 2, eq_ix3 i⟩
  rw [Cert.Mlp.out_ix3]
  unfold Cert.Mlp.outAt
  refine (addf_apply _ _ _).trans ?_
  rw [bias2_apply]
  refine congrArg (fun s => s + b2 (ix1 j)) ?_
  refine (LibDotRows.dotGeneral_rows_apply (φ₁ := .f32) (φ₂ := .f32) _ none _ W2 z n j).trans ?_
  refine Finset.sum_congr rfl fun h _ => ?_
  exact congrArg (· * W2 (ix2 h j)) (hidden_apply X W1 b1 z n h)

/-- The fold of the perceptron's operations over any contents leaves the specification, of those contents, in the result. -/
theorem perceptron_after (W : Valuation τ sig (Elt Ideal)) :
    after perceptronOps W (Proc.devRef .tc main_v21)
      = Cert.Mlp.out (W (Proc.devRef .tc main_v12)) (W (Proc.devRef .tc main_arg2)) (W (Proc.devRef .tc main_arg3))
          (W (Proc.devRef .tc main_arg4)) (W (Proc.devRef .tc main_arg5)) := by
  after_results_simp
  simp only [TRef.toBuf, TRef.ofBuf, cast_eq]
  exact perceptron_eq _ _ _ _ _

/-! ## The feature operations leave the weights and biases as launched -/

variable (m : (ℓ : Loc nD τ sig) → Buf (Elt Ideal) ℓ)

theorem features_keep_arg2 (c : Dev nD) :
    after featureOps (launchContents m c) (Proc.devRef .tc main_arg2) = m ((c.tc : Thread nD τ).loc main_arg2) := by
  after_results_simp <;> rfl
theorem features_keep_arg3 (c : Dev nD) :
    after featureOps (launchContents m c) (Proc.devRef .tc main_arg3) = m ((c.tc : Thread nD τ).loc main_arg3) := by
  after_results_simp <;> rfl
theorem features_keep_arg4 (c : Dev nD) :
    after featureOps (launchContents m c) (Proc.devRef .tc main_arg4) = m ((c.tc : Thread nD τ).loc main_arg4) := by
  after_results_simp <;> rfl
theorem features_keep_arg5 (c : Dev nD) :
    after featureOps (launchContents m c) (Proc.devRef .tc main_arg5) = m ((c.tc : Thread nD τ).loc main_arg5) := by
  after_results_simp <;> rfl

/-- The reference's result: the specification of the feature array its first thirty-six operations leave and of the
    weights and biases as launched. -/
theorem result_eq (c : Dev nD) :
    after ops (launchContents m c) (Proc.devRef .tc main_v21)
      = Cert.Mlp.out (after featureOps (launchContents m c) (Proc.devRef .tc main_v12))
          (m ((c.tc : Thread nD τ).loc main_arg2)) (m ((c.tc : Thread nD τ).loc main_arg3))
          (m ((c.tc : Thread nD τ).loc main_arg4)) (m ((c.tc : Thread nD τ).loc main_arg5)) := by
  rw [after_ops, perceptron_after, features_keep_arg2, features_keep_arg3, features_keep_arg4, features_keep_arg5]

end Cert.ReferenceIdeal.Hand

end
-- ==== Proof.FeaturesAgree.lean ====
/-
  The two programs build the same feature array. Each runs, on the grid encoding and the neighbour indices, the same
  thirty-six host operations — flatten the grid to [1, 8, 262144]; wrap negative indices, gather each channel's row at
  every neighbour index, and put the fill value where an index is out of range; zero the entries whose index is 0;
  transpose channels behind points and merge them with the neighbours into [1, 100000, 256] — over buffers that only
  differ in how each program numbers them. Read back operation by operation, the two folds are the same composition of
  the same pure functions of the two arguments, so where the launch contents agree on the two arguments they leave the
  same array. The composition itself is never opened: the two read-backs are compared as they stand.
-/
import proofs.«178317_j49435073577117_2_alg».proof.Proof.KernelHost
import proofs.«178317_j49435073577117_2_alg».proof.Proof.RefRun

noncomputable section

namespace Cert.Features

open Idealize.ShloMosaic Idealize.ShloMosaic.TcCoe Idealize.SL.Sem Idealize.ShloMosaic.StableHlo

variable {F : FTy → Type} [FloatOps F]

set_option maxRecDepth 8192 in
set_option maxHeartbeats 2000000 in
/-- The feature arrays agree where the grid and the indices do. -/
theorem agree (L : Valuation Cert.KernelIdeal.τ Cert.KernelIdeal.sig (Elt F))
    (L' : Valuation Cert.ReferenceIdeal.τ Cert.ReferenceIdeal.sig (Elt F))
    (h0 : (L' (Proc.devRef .tc Cert.ReferenceIdeal.main_arg0) : Cert.KernelIdeal.S1x8x64x64x64.Idx → F .f32)
      = L (Proc.devRef .tc Cert.KernelIdeal.main_arg0))
    (h1 : (L' (Proc.devRef .tc Cert.ReferenceIdeal.main_arg1) : Cert.KernelIdeal.S1x100000x32.Idx → BitVec 32)
      = L (Proc.devRef .tc Cert.KernelIdeal.main_arg1)) :
    (after Cert.KernelIdeal.Host.featureOps L (Proc.devRef .tc Cert.KernelIdeal.main_v12)
        : Cert.KernelIdeal.S1x100000x256.Idx → F .f32)
      = after Cert.ReferenceIdeal.Hand.featureOps L' (Proc.devRef .tc Cert.ReferenceIdeal.main_v12) := by
  after_results_simp
  rw [h0, h1]
  rfl

end Cert.Features

end
-- ==== Proof.lean ====
/-
  The kernel and its reference compute one function. Both gather, for each of 100000 points, the grid encoding's eight
  channels at the point's 32 neighbour indices (an index out of range reads the fill value, an index 0 is masked to
  zero) into a feature row of 256 entries, and apply a two-layer perceptron to every row:

      out[0, n, j] = Σ_h max (Σ_d X[0, n, d] · W1[d, h] + b1[h]) 0 · W2[h, j] + b2[j].

  The reference does this with two whole contractions on the host. The kernel program builds the same feature array on
  the host, changes it and the two weight matrices to bf16, and hands fifty blocks of 2000 rows to a kernel that
  multiplies each block by the whole of W1 into a zero accumulator, adds b1, clamps at zero, changes to bf16, multiplies
  by the whole of W2 into a zero accumulator and adds b2; the host then adds a leading unit axis.

  At the ideal values a change of float format is the identity and a product into a zero accumulator is the plain sum
  over the contracted coordinate, so row n of block n / 2000 is exactly the reference's row n: the same two sums over
  the same index sets, term by term. No sum is rearranged and no law of the extended reals beyond equality of the
  summands is used, so the precondition (finite inputs) is never opened. The feature array is the same in both programs
  because both build it by the same thirty-six operations from the same two arguments (Proof/FeaturesAgree.lean); it is
  carried as one opaque array throughout.

  The three frames: the two kernel programs' are the generated frame certificates (class A, whole); the reference's is its
  run with the result dropped. The idealization rewrote nothing, so what it must preserve is `True`.
-/
import proofs.«178317_j49435073577117_2_alg».proof.Defs
import proofs.«178317_j49435073577117_2_alg».proof.Proof.Gen.Kernel
import proofs.«178317_j49435073577117_2_alg».proof.Proof.Gen.Kernel.Skeleton
import proofs.«178317_j49435073577117_2_alg».proof.Proof.Gen.Kernel.Launch
import proofs.«178317_j49435073577117_2_alg».proof.Proof.Gen.Kernel.Points
import proofs.«178317_j49435073577117_2_alg».proof.Proof.Gen.Kernel.Frame
import proofs.«178317_j49435073577117_2_alg».proof.Proof.Gen.KernelIdeal
import proofs.«178317_j49435073577117_2_alg».proof.Proof.Gen.KernelIdeal.Skeleton
import proofs.«178317_j49435073577117_2_alg».proof.Proof.Gen.KernelIdeal.Launch
import proofs.«178317_j49435073577117_2_alg».proof.Proof.Gen.KernelIdeal.Points
import proofs.«178317_j49435073577117_2_alg».proof.Proof.Gen.KernelIdeal.Frame
import proofs.«178317_j49435073577117_2_alg».proof.Proof.Gen.ReferenceIdeal
import proofs.«178317_j49435073577117_2_alg».proof.Proof.Gen.Pre_finite_inputs
import proofs.«178317_j49435073577117_2_alg».proof.Proof.KernelRun
import proofs.«178317_j49435073577117_2_alg».proof.Proof.RefValue
import proofs.«178317_j49435073577117_2_alg».proof.Proof.FeaturesAgree
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The ideal pass rewrote no operation. -/
theorem preserves : Cert.preserves_Kernel_KernelIdeal := trivial

/-- From memories that agree on the six arguments both programs end with the result at the perceptron of the same
    feature array and the same weights and biases. -/
theorem algebraic : Cert.algebraic_KernelIdeal_ReferenceIdeal := by
  intro m ρ m' ρ' _ hagree
  refine ⟨fun c => Cert.KernelIdeal.Host.result m c, Cert.KernelIdeal.Host.run m ρ, ?_⟩
  refine (θ_run Cert.ReferenceIdeal.defs _ _).mono (fun _ h c => ⟨(h c).1.trans ?_, (h c).2⟩)
    (Cert.ReferenceIdeal.Hand.run (F := Ideal) m' ρ')
  obtain ⟨a0, a1, a2, a3, a4, a5⟩ := hagree c
  rw [Cert.ReferenceIdeal.Hand.result_eq, a2, a3, a4, a5]
  have hfeat := Cert.Features.agree (F := Ideal) (fun b => m (c, b)) (launchContents m' c) a0 a1
  exact congrArg (fun X => Cert.Mlp.out X (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))) hfeat.symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
